-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x384 : Shape := ⟨2, ![256, 384]⟩
abbrev S384 : Shape := ⟨1, ![384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x384 : S_.BroadcastsInDim S256x384 (![] : Fin 0 → Fin S256x384.rank)
  reducesTo_S256x384_S_d0_1 : S256x384.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg8 : FVec F S256x384 .f32) (main_arg9 : FVec F S256x384 .f32) (main_arg10 : FVec F S384 .f32) (main_v33 : IVec S_ 1) : IVec S_ 1 :=
  let main_v34 : FVec F S256x384 .f32 := Host.absf main_arg8
  let main_cst_12 : FVec F S_ .f32 := constant S_ .f32 0x7F800000#32
  let main_v35 : FVec F S256x384 .f32 := broadcastInDim S256x384 ![] bcast_S_S256x384 main_cst_12
  let main_v36 : IVec S256x384 1 := cmpf .olt main_v34 main_v35
  let main_c_13 : IVec S_ 1 := constantI S_ 1 1#1
  let main_v37 : IVec S_ 1 := (fun x v => Host.reduce IntOp.andi x v reducesTo_S256x384_S_d0_1 h_S_) main_v36 main_c_13
  let main_v38 : IVec S_ 1 := andi main_v33 main_v37
  let main_v39 : FVec F S256x384 .f32 := Host.absf main_arg9
  let main_cst_14 : FVec F S_ .f32 := constant S_ .f32 0x7F800000#32
  let main_v40 : FVec F S256x384 .f32 := broadcastInDim S256x384 ![] bcast_S_S256x384 main_cst_14
  let main_v41 : IVec S256x384 1 := cmpf .olt main_v39 main_v40
  let main_c_15 : IVec S_ 1 := constantI S_ 1 1#1
  let main_v42 : IVec S_ 1 := (fun x v => Host.reduce IntOp.andi x v reducesTo_S256x384_S_d0_1 h_S_) main_v41 main_c_15
  let main_v43 : IVec S_ 1 := andi main_v38 main_v42
  let main_v44 : FVec F S384 .f32 := Host.absf main_arg10
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  main_v48

def fn_part1 {F : FTy → Type} [FloatOps F] (main_arg5 : FVec F S256x256 .f32) (main_arg6 : FVec F S256x256 .f32) (main_arg7 : FVec F S256 .f32) (main_arg8 : FVec F S256x384 .f32) (main_arg9 : FVec F S256x384 .f32) (main_arg10 : FVec F S384 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x256 .f32) (main_arg3 : FVec F S128x256 .f32) (main_arg4 : FVec F S256 .f32) (main_arg5 : FVec F S256x256 .f32) (main_arg6 : FVec F S256x256 .f32) (main_arg7 : FVec F S256 .f32) (main_arg8 : FVec F S256x384 .f32) (main_arg9 : FVec F S256x384 .f32) (main_arg10 : FVec F S384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x384 : Shape := ⟨2, ![256, 384]⟩
abbrev S384 : Shape := ⟨1, ![384]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S800000x256 : Shape := ⟨2, ![800000, 256]⟩
abbrev S50000x384 : Shape := ⟨2, ![50000, 384]⟩
abbrev S2000x128 : Shape := ⟨2, ![2000, 128]⟩
abbrev S2000x1 : Shape := ⟨2, ![2000, 1]⟩
abbrev S2000x256 : Shape := ⟨2, ![2000, 256]⟩
abbrev S1x256 : Shape := ⟨2, ![1, 256]⟩
abbrev S2000x384 : Shape := ⟨2, ![2000, 384]⟩
abbrev S1x384 : Shape := ⟨2, ![1, 384]⟩

abbrev nBuf : Space → Nat
  | .hbm => 70
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x384, .f32⟩
  | .hbm, ⟨9, _⟩ => ⟨S256x384, .f32⟩
  | .hbm, ⟨10, _⟩ => ⟨S384, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S50000x256, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x256, .f32⟩
  | .hbm, ⟨65, _⟩ => ⟨S_, .f32⟩
  | .hbm, ⟨66, _⟩ => ⟨S50000x256, .f32⟩
  | .hbm, ⟨67, _⟩ => ⟨S800000x1, .i32⟩
  | .hbm, ⟨68, _⟩ => ⟨S50000x256, .f32⟩
  | .hbm, ⟨69, _⟩ => ⟨S50000x384, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x256, .f32⟩
  | .local _ .vmem, ⟨7, _⟩ => ⟨S128x256, .f32⟩
  | .local _ .vmem, ⟨8, _⟩ => ⟨S256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S256x256, .f32⟩
  | .local _ .vmem, ⟨19, _⟩ => ⟨S256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x1, .f32⟩
  | .local _ .vmem, ⟨25, _⟩ => ⟨S2000x1, .f32⟩
  | .local _ .vmem, ⟨26, _⟩ => ⟨S2000x256, .f32⟩
  | .local _ .vmem, ⟨27, _⟩ => ⟨S2000x256, .f32⟩
  | .local _ .vmem, ⟨28, _⟩ => ⟨S256x384, .f32⟩
  | .local _ .vmem, ⟨29, _⟩ => ⟨S256x384, .f32⟩
  | .local _ .vmem, ⟨30, _⟩ => ⟨S384, .f32⟩
  | .local _ .vmem, ⟨31, _⟩ => ⟨S2000x384, .f32⟩
  | .local _ .vmem, ⟨32, _⟩ => ⟨S2000x384, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_cst : Ref sig .tc := ⟨.hbm, 15, rfl⟩
abbrev main_call0_v4 : Ref sig .tc := ⟨.hbm, 16, rfl⟩
abbrev main_call0_cst_0 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_v9 : Ref sig .tc := ⟨.hbm, 23, rfl⟩
abbrev main_call0_cst_2 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_c : Ref sig .tc := ⟨.hbm, 28, rfl⟩
abbrev main_call0_v13 : Ref sig .tc := ⟨.hbm, 29, rfl⟩
abbrev main_call0_v14 : Ref sig .tc := ⟨.hbm, 30, rfl⟩
abbrev main_call0_c_3 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_cst_4 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_c_5 : Ref sig .tc := ⟨.hbm, 42, rfl⟩
abbrev main_call0_v24 : Ref sig .tc := ⟨.hbm, 43, rfl⟩
abbrev main_call0_v25 : Ref sig .tc := ⟨.hbm, 44, rfl⟩
abbrev main_call0_c_6 : Ref sig .tc := ⟨.hbm, 45, rfl⟩
abbrev main_call0_v26 : Ref sig .tc := ⟨.hbm, 46, rfl⟩
abbrev main_call0_v27 : Ref sig .tc := ⟨.hbm, 47, rfl⟩
abbrev main_call0_v28 : Ref sig .tc := ⟨.hbm, 48, rfl⟩
abbrev main_call0_v29 : Ref sig .tc := ⟨.hbm, 49, rfl⟩
abbrev main_call0_v30 : Ref sig .tc := ⟨.hbm, 50, rfl⟩
abbrev main_call0_cst_7 : Ref sig .tc := ⟨.hbm, 51, rfl⟩
abbrev main_call0_v31 : Ref sig .tc := ⟨.hbm, 52, rfl⟩
abbrev main_call0_v32 : Ref sig .tc := ⟨.hbm, 53, rfl⟩
abbrev main_call0_v33 : Ref sig .tc := ⟨.hbm, 54, rfl⟩
abbrev main_call0_v34 : Ref sig .tc := ⟨.hbm, 55, rfl⟩
abbrev main_call0_c_8 : Ref sig .tc := ⟨.hbm, 56, rfl⟩
abbrev main_call0_v35 : Ref sig .tc := ⟨.hbm, 57, rfl⟩
abbrev main_call0_v36 : Ref sig .tc := ⟨.hbm, 58, rfl⟩
abbrev main_call0_c_9 : Ref sig .tc := ⟨.hbm, 59, rfl⟩
abbrev main_call0_v37 : Ref sig .tc := ⟨.hbm, 60, rfl⟩
abbrev main_call0_v38 : Ref sig .tc := ⟨.hbm, 61, rfl⟩
abbrev main_call0_v39 : Ref sig .tc := ⟨.hbm, 62, rfl⟩
abbrev main_call0_v40 : Ref sig .tc := ⟨.hbm, 63, rfl⟩
abbrev main_call0_v41 : Ref sig .tc := ⟨.hbm, 64, rfl⟩
abbrev main_call0_cst_10 : Ref sig .tc := ⟨.hbm, 65, rfl⟩
abbrev main_call0_v42 : Ref sig .tc := ⟨.hbm, 66, rfl⟩
abbrev main_call0_v43 : Ref sig .tc := ⟨.hbm, 67, rfl⟩
abbrev main_call0_v44 : Ref sig .tc := ⟨.hbm, 68, rfl⟩
abbrev main_v0 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  bcast_S_S50000x256 : S_.BroadcastsInDim S50000x256 (![] : Fin 0 → Fin S50000x256.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  inb_S256x384_S256x384_0_0 : ∀ a, (![0, 0] : Fin 2 → Nat) a + S256x384.size a ≤ S256x384.size a
  h_S256x384 : 0 < S256x384.numel
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  dot_S2000x256_S256x384_S2000x384_1_0_0_1_n_n_wf : DotDims.WF S2000x256 S256x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x384.size a ≤ S256x384.size a
  hwx2_3 : ∀ i : grid2.Coords, EltTy.bits .f32 = 32 ∨ (Rect.block (s := S256x384) S256x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x384.size a ≤ S256x384.size a
  hwx2_4 : ∀ i : grid2.Coords, EltTy.bits .f32 = 32 ∨ (Rect.block (s := S256x384) S256x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S384.size a ≤ S384.size a
  hwx2_5 : ∀ i : grid2.Coords, EltTy.bits .f32 = 32 ∨ (Rect.block (s := S384) S384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x384.size a ≤ S50000x384.size a
  hwx2_6 : ∀ i : grid2.Coords, EltTy.bits .f32 = 32 ∨ (Rect.block (s := S50000x384) S2000x384.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x384_S2000x384_1_0_0_1_n_n : DotDims S2000x256 S256x384 S2000x384 where
  lhsContracting := [1]
  rhsContracting := [0]
  lhsNonContracting := [0]
  rhsNonContracting := [1]
  lhsBatch := []
  rhsBatch := []
  wf := dot_S2000x256_S256x384_S2000x384_1_0_0_1_n_n_wf

abbrev win0_0 : Pipeline.Window sig grid0 :=
  Pipeline.Window.ofSpec (Memref.whole main_call0_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v23) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v33) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v23) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v34) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v44) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v34) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S256x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S256x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v0) S2000x384.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x384 : Shape := ⟨2, ![256, 384]⟩
abbrev S384 : Shape := ⟨1, ![384]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x384 : Shape := ⟨2, ![50000, 384]⟩
abbrev S1x384 : Shape := ⟨2, ![1, 384]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x384, .f32⟩
  | .hbm, ⟨9, _⟩ => ⟨S256x384, .f32⟩
  | .hbm, ⟨10, _⟩ => ⟨S384, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S1x256, .f32⟩
  | .hbm, ⟨47, _⟩ => ⟨S50000x256, .f32⟩
  | .hbm, ⟨48, _⟩ => ⟨S50000x256, .f32⟩
  | .hbm, ⟨49, _⟩ => ⟨S_, .f32⟩
  | .hbm, ⟨50, _⟩ => ⟨S50000x256, .f32⟩
  | .hbm, ⟨51, _⟩ => ⟨S50000x256, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S_, .f32⟩
  | .hbm, ⟨74, _⟩ => ⟨S50000x256, .f32⟩
  | .hbm, ⟨75, _⟩ => ⟨S50000x256, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x256, .f32⟩
  | .hbm, ⟨85, _⟩ => ⟨S_, .f32⟩
  | .hbm, ⟨86, _⟩ => ⟨S50000x256, .f32⟩
  | .hbm, ⟨87, _⟩ => ⟨S800000x1, .i32⟩
  | .hbm, ⟨88, _⟩ => ⟨S50000x256, .f32⟩
  | .hbm, ⟨89, _⟩ => ⟨S50000x256, .f32⟩
  | .hbm, ⟨90, _⟩ => ⟨S50000x256, .f32⟩
  | .hbm, ⟨91, _⟩ => ⟨S50000x384, .f32⟩
  | .hbm, ⟨92, _⟩ => ⟨S50000x384, .f32⟩
  | .hbm, ⟨93, _⟩ => ⟨S50000x384, .f32⟩
  | .hbm, ⟨94, _⟩ => ⟨S1x384, .f32⟩
  | .hbm, ⟨95, _⟩ => ⟨S50000x384, .f32⟩
  | .hbm, ⟨96, _⟩ => ⟨S50000x384, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_c_8 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x384_S50000x384_1_0_0_1_n_n_wf : DotDims.WF S50000x256 S256x384 S50000x384 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x384_S50000x384_1_0_0_1_n_n : DotDims S50000x256 S256x384 S50000x384 where
  lhsContracting := [1]
  rhsContracting := [0]
  lhsNonContracting := [0]
  rhsNonContracting := [1]
  lhsBatch := []
  rhsBatch := []
  wf := dot_S50000x256_S256x384_S50000x384_1_0_0_1_n_n_wf

class Facts : Prop extends Facts₀ where

variable [Facts]
-- ==== Proof.KRun.lean ====
/-
  The idealized kernel program's run, with its result named.

  The program is three kernel launches among stretches of host operations.  Every weakly fair execution from a
  memory `m` terminates without a fault, and in every final state each buffer that outlives the launches holds what
  the fold `W6` of the program's segments over `m` puts there: in particular the result buffer holds `W6` at the
  result, and each argument array holds what it held in `m`.  This is the run behind the frame with the final
  reading kept for the result buffer as well as for the arguments.
-/
import proofs.«147737_j30219389895226_2_alg».proof.Proof.PatchedFrameKernelIdeal

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program from `m` terminates, nothing faulting, with the result buffer at the
    segments' fold `W6` and every argument array as in `m`. -/
theorem run_result : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.KRun

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.SageEntry.lean ====
/-
  One layer of a GraphSAGE encoder, read at an entry.

  A layer takes the aggregated neighbour features `agg` ([m, k]), the column of inverse degrees `inv` ([m, 1]),
  the node features `x` ([m, k]), two weight matrices `wl`, `wr` ([k, n]) and a bias `b` ([n]), and returns at
  entry (p, j)

      (∑ q, (agg (p, q) · inv (p, 0)) · wl (q, j))  +  (∑ q, x (p, q) · wr (q, j))  +  b j,

  followed on the inner layers by the maximum with zero.  Entry (p, j) depends on row p of `agg`, `inv` and `x`
  only, which is why the layer may be computed a block of rows at a time.

  Here the two spellings of that value are read at an entry on the extended reals, for any extents: the one a
  kernel body uses on a block of rows (two products into a zero accumulator, operands narrowed to bf16 — the
  identity on the extended reals — the column broadcast along the rows, the bias cast to one row and broadcast
  down), and the one a host program uses on the whole arrays (two `dot_general`s, the column and the bias
  broadcast in dimensions).
-/
import proofs.«147737_j30219389895226_2_alg».proof.Proof.LibPlainDot
import proofs.«147737_j30219389895226_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.Sage

open Idealize.ShloMosaic Idealize.ShloMosaic.ValueIdx

variable {m k n : ℕ}

/-- The value of a layer before its activation, at entry (p, j). -/
def preact (agg : FVec Ideal ⟨2, ![m, k]⟩ .f32) (inv : FVec Ideal ⟨2, ![m, 1]⟩ .f32) (x : FVec Ideal ⟨2, ![m, k]⟩ .f32)
    (wl wr : FVec Ideal ⟨2, ![k, n]⟩ .f32) (b : FVec Ideal ⟨1, ![n]⟩ .f32) (p : Fin m) (j : Fin n) : EReal :=
  ((∑ q : Fin k, (agg (ix2 p q) * inv (ix2 p (0 : Fin 1))) * wl (ix2 q j)) + ∑ q : Fin k, x (ix2 p q) * wr (ix2 q j))
    + b (ix1 j)

/-- The float word of zero, kept as a word: both programs compare against the same one. -/
abbrev zeroW : EReal := Ideal.ofBits .f32 0x00000000#32

/-! ## Layout steps of the host spelling, read at an entry -/

section Layout
variable {α : Type}

/-- A column [m, 1] broadcast in dimensions (0, 1) to [m, k] reads, at (p, q), the column's entry p. -/
theorem bcastCol_apply (c : (⟨2, ![m, 1]⟩ : Shape).Idx → α)
    (h : (⟨2, ![m, 1]⟩ : Shape).BroadcastsInDim ⟨2, ![m, k]⟩ (![0, 1] : Fin 2 → Fin 2)) (p : Fin m) (q : Fin k) :
    broadcastInDim ⟨2, ![m, k]⟩ (![0, 1] : Fin 2 → Fin 2) h c (ix2 p q) = c (ix2 p (0 : Fin 1)) := by
  refine broadcastInDim_apply _ h c (ix2 p q) (ix2 p (0 : Fin 1)) fun a => ?_
  match a with
  | ⟨0, _⟩ =>
    show p.val = if m = 1 then 0 else p.val
    split
    · have := p.isLt; omega
    · rfl
  | ⟨1, _⟩ => rfl

/-- A vector [n] broadcast in dimension (1) to one row [1, n] reads, at (u, j), the vector's entry j. -/
theorem bcastRow_apply (b : (⟨1, ![n]⟩ : Shape).Idx → α)
    (h : (⟨1, ![n]⟩ : Shape).BroadcastsInDim ⟨2, ![1, n]⟩ (![1] : Fin 1 → Fin 2)) (u : Fin 1) (j : Fin n) :
    broadcastInDim ⟨2, ![1, n]⟩ (![1] : Fin 1 → Fin 2) h b (ix2 u j) = b (ix1 j) := by
  refine broadcastInDim_apply _ h b (ix2 u j) (ix1 j) fun a => ?_
  match a with
  | ⟨0, _⟩ =>
    show j.val = if n = 1 then 0 else j.val
    split
    · have := j.isLt; omega
    · rfl

/-- One row [1, n] broadcast in dimensions (0, 1) to [m, n] reads, at (p, j), the row's entry j. -/
theorem bcastRows_apply (v : (⟨2, ![1, n]⟩ : Shape).Idx → α)
    (h : (⟨2, ![1, n]⟩ : Shape).BroadcastsInDim ⟨2, ![m, n]⟩ (![0, 1] : Fin 2 → Fin 2)) (p : Fin m) (j : Fin n) :
    broadcastInDim ⟨2, ![m, n]⟩ (![0, 1] : Fin 2 → Fin 2) h v (ix2 p j) = v (ix2 (0 : Fin 1) j) := by
  refine broadcastInDim_apply _ h v (ix2 p j) (ix2 (0 : Fin 1) j) fun a => ?_
  match a with
  | ⟨0, _⟩ => rfl
  | ⟨1, _⟩ =>
    show j.val = if n = 1 then 0 else j.val
    split
    · have := j.isLt; omega
    · rfl

/-- A vector [m] broadcast in dimension (0) to a column [m, 1] reads, at (p, u), the vector's entry p. -/
theorem bcastToCol_apply (v : (⟨1, ![m]⟩ : Shape).Idx → α)
    (h : (⟨1, ![m]⟩ : Shape).BroadcastsInDim ⟨2, ![m, 1]⟩ (![0] : Fin 1 → Fin 2)) (p : Fin m) (u : Fin 1) :
    broadcastInDim ⟨2, ![m, 1]⟩ (![0] : Fin 1 → Fin 2) h v (ix2 p u) = v (ix1 p) := by
  refine broadcastInDim_apply _ h v (ix2 p u) (ix1 p) fun a => ?_
  match a with
  | ⟨0, _⟩ =>
    show p.val = if m = 1 then 0 else p.val
    split
    · have := p.isLt; omega
    · rfl

end Layout

/-! ## The kernel's spelling, on a block of rows -/

/-- The body's value before the activation, at entry (p, j) of the block: the products into the zero accumulator are
    plain sums, the narrowing to bf16 changes nothing on the extended reals, the column reads its entry p along the
    whole row and the bias its entry j down the whole column. -/
theorem kernel_preact_apply (D : DotDims ⟨2, ![m, k]⟩ ⟨2, ![k, n]⟩ ⟨2, ![m, n]⟩) (hD : D = DotDims.plain m k n)
    (hcol : (⟨2, ![m, 1]⟩ : Shape).Broadcasts ⟨2, ![m, k]⟩) (hrow : (⟨1, ![n]⟩ : Shape).ShapeCasts ⟨2, ![1, n]⟩)
    (hdown : (⟨2, ![1, n]⟩ : Shape).Broadcasts ⟨2, ![m, n]⟩)
    (ht : FTy.bf16.bits < FTy.f32.bits)
    (agg : FVec Ideal ⟨2, ![m, k]⟩ .f32) (inv : FVec Ideal ⟨2, ![m, 1]⟩ .f32) (x : FVec Ideal ⟨2, ![m, k]⟩ .f32)
    (wl wr : FVec Ideal ⟨2, ![k, n]⟩ .f32) (b : FVec Ideal ⟨1, ![n]⟩ .f32) (p : Fin m) (j : Fin n) :
    addf (addf
        (matmul D none (truncf .bf16 (mulf agg (broadcastTo ⟨2, ![m, k]⟩ inv hcol)) ht) (truncf .bf16 wl ht)
          (constant (F := Ideal) ⟨2, ![m, n]⟩ .f32 0x00000000#32))
        (matmul D none (truncf .bf16 x ht) (truncf .bf16 wr ht) (constant (F := Ideal) ⟨2, ![m, n]⟩ .f32 0x00000000#32)))
      (broadcastTo ⟨2, ![m, n]⟩ (shapeCast ⟨2, ![1, n]⟩ b hrow) hdown) (ix2 p j)
      = preact agg inv x wl wr b p j := by
  show (matmul D none _ _ _ (ix2 p j) + matmul D none _ _ _ (ix2 p j))
      + broadcastTo ⟨2, ![m, n]⟩ (shapeCast ⟨2, ![1, n]⟩ b hrow) hdown (ix2 p j) = _
  rw [Cert.PlainDot.matmul_zero_ix2 D hD, Cert.PlainDot.matmul_zero_ix2 D hD, broadcastTo_1b_ab_apply, shapeCast_a_1a_apply]
  unfold preact
  refine congrArg₂ _ (congrArg₂ _ (Finset.sum_congr rfl fun q _ => ?_) rfl) rfl
  show (agg (ix2 p q) * broadcastTo ⟨2, ![m, k]⟩ inv hcol (ix2 p q)) * wl (ix2 q j) = _
  rw [Cert.LibKeepdims.broadcastTo_a1_ab_apply]

/-! ## The host's spelling, on the whole arrays -/

/-- The host's value before the activation, at entry (p, j). -/
theorem host_preact_apply (D : DotDims ⟨2, ![m, k]⟩ ⟨2, ![k, n]⟩ ⟨2, ![m, n]⟩) (hD : D = DotDims.plain m k n)
    (hcol : (⟨2, ![m, 1]⟩ : Shape).BroadcastsInDim ⟨2, ![m, k]⟩ (![0, 1] : Fin 2 → Fin 2))
    (hrow : (⟨1, ![n]⟩ : Shape).BroadcastsInDim ⟨2, ![1, n]⟩ (![1] : Fin 1 → Fin 2))
    (hdown : (⟨2, ![1, n]⟩ : Shape).BroadcastsInDim ⟨2, ![m, n]⟩ (![0, 1] : Fin 2 → Fin 2))
    (agg : FVec Ideal ⟨2, ![m, k]⟩ .f32) (inv : FVec Ideal ⟨2, ![m, 1]⟩ .f32) (x : FVec Ideal ⟨2, ![m, k]⟩ .f32)
    (wl wr : FVec Ideal ⟨2, ![k, n]⟩ .f32) (b : FVec Ideal ⟨1, ![n]⟩ .f32) (p : Fin m) (j : Fin n) :
    addf (addf
        (Host.dotGeneral D none (mulf agg (broadcastInDim ⟨2, ![m, k]⟩ (![0, 1] : Fin 2 → Fin 2) hcol inv)) wl)
        (Host.dotGeneral D none x wr))
      (broadcastInDim ⟨2, ![m, n]⟩ (![0, 1] : Fin 2 → Fin 2) hdown (broadcastInDim ⟨2, ![1, n]⟩ (![1] : Fin 1 → Fin 2) hrow b))
      (ix2 p j)
      = preact agg inv x wl wr b p j := by
  show (Host.dotGeneral D none _ _ (ix2 p j) + Host.dotGeneral D none _ _ (ix2 p j))
      + broadcastInDim ⟨2, ![m, n]⟩ (![0, 1] : Fin 2 → Fin 2) hdown (broadcastInDim ⟨2, ![1, n]⟩ (![1] : Fin 1 → Fin 2) hrow b) (ix2 p j) = _
  rw [Cert.PlainDot.dotGeneral_ix2 D hD, Cert.PlainDot.dotGeneral_ix2 D hD, bcastRows_apply, bcastRow_apply]
  unfold preact
  refine congrArg₂ _ (congrArg₂ _ (Finset.sum_congr rfl fun q _ => ?_) rfl) rfl
  show (agg (ix2 p q) * broadcastInDim ⟨2, ![m, k]⟩ (![0, 1] : Fin 2 → Fin 2) hcol inv (ix2 p q)) * wl (ix2 q j) = _
  rw [bcastCol_apply]

end Cert.Sage

end
-- ==== Proof.SageSpec.lean ====
/-
  The three-layer GraphSAGE encoder as one function of its inputs.

  Each layer maps node features `h` ([N, d]) to

      act ( (A h · inv) W_l  +  h W_r  +  b ),

  where `A h` is the sum of the neighbours' rows of `h` (a gather along the edges' sources followed by a
  scatter-add at their targets), `inv` the column of inverse degrees, and `act` the maximum with zero on the two
  inner layers and nothing on the last.  The neighbour sum and the inverse degrees depend on the edge list only
  through host operations that both programs apply verbatim, so they are parameters here: `A₀`, `A₁`, `A₂` (one
  per layer's width) and `inv`.
-/
import proofs.«147737_j30219389895226_2_alg».proof.Proof.SageEntry

noncomputable section

namespace Cert.Sage

open Idealize.ShloMosaic Idealize.ShloMosaic.ValueIdx

variable {m k n : ℕ}

/-- An inner layer: the value before the activation, then the maximum with zero, entry by entry. -/
def layerRelu (agg : FVec Ideal ⟨2, ![m, k]⟩ .f32) (inv : FVec Ideal ⟨2, ![m, 1]⟩ .f32) (x : FVec Ideal ⟨2, ![m, k]⟩ .f32)
    (wl wr : FVec Ideal ⟨2, ![k, n]⟩ .f32) (b : FVec Ideal ⟨1, ![n]⟩ .f32) : FVec Ideal ⟨2, ![m, n]⟩ .f32 :=
  fun i => max (preact agg inv x wl wr b (i 0) (i 1)) zeroW

/-- The last layer: the value before the activation, entry by entry. -/
def layerLin (agg : FVec Ideal ⟨2, ![m, k]⟩ .f32) (inv : FVec Ideal ⟨2, ![m, 1]⟩ .f32) (x : FVec Ideal ⟨2, ![m, k]⟩ .f32)
    (wl wr : FVec Ideal ⟨2, ![k, n]⟩ .f32) (b : FVec Ideal ⟨1, ![n]⟩ .f32) : FVec Ideal ⟨2, ![m, n]⟩ .f32 :=
  fun i => preact agg inv x wl wr b (i 0) (i 1)

theorem layerRelu_ix2 (agg : FVec Ideal ⟨2, ![m, k]⟩ .f32) (inv : FVec Ideal ⟨2, ![m, 1]⟩ .f32) (x : FVec Ideal ⟨2, ![m, k]⟩ .f32)
    (wl wr : FVec Ideal ⟨2, ![k, n]⟩ .f32) (b : FVec Ideal ⟨1, ![n]⟩ .f32) (p : Fin m) (j : Fin n) :
    layerRelu agg inv x wl wr b (ix2 p j) = max (preact agg inv x wl wr b p j) zeroW := rfl

theorem layerLin_ix2 (agg : FVec Ideal ⟨2, ![m, k]⟩ .f32) (inv : FVec Ideal ⟨2, ![m, 1]⟩ .f32) (x : FVec Ideal ⟨2, ![m, k]⟩ .f32)
    (wl wr : FVec Ideal ⟨2, ![k, n]⟩ .f32) (b : FVec Ideal ⟨1, ![n]⟩ .f32) (p : Fin m) (j : Fin n) :
    layerLin agg inv x wl wr b (ix2 p j) = preact agg inv x wl wr b p j := rfl

/-- The encoder: three layers, each fed the previous layer's features and their neighbour sum. -/
def encoder {N d₀ d₁ d₂ d₃ : ℕ}
    (A₀ : FVec Ideal ⟨2, ![N, d₀]⟩ .f32 → FVec Ideal ⟨2, ![N, d₀]⟩ .f32)
    (A₁ : FVec Ideal ⟨2, ![N, d₁]⟩ .f32 → FVec Ideal ⟨2, ![N, d₁]⟩ .f32)
    (A₂ : FVec Ideal ⟨2, ![N, d₂]⟩ .f32 → FVec Ideal ⟨2, ![N, d₂]⟩ .f32)
    (inv : FVec Ideal ⟨2, ![N, 1]⟩ .f32) (x : FVec Ideal ⟨2, ![N, d₀]⟩ .f32)
    (w1l w1r : FVec Ideal ⟨2, ![d₀, d₁]⟩ .f32) (b1 : FVec Ideal ⟨1, ![d₁]⟩ .f32)
    (w2l w2r : FVec Ideal ⟨2, ![d₁, d₂]⟩ .f32) (b2 : FVec Ideal ⟨1, ![d₂]⟩ .f32)
    (w3l w3r : FVec Ideal ⟨2, ![d₂, d₃]⟩ .f32) (b3 : FVec Ideal ⟨1, ![d₃]⟩ .f32) : FVec Ideal ⟨2, ![N, d₃]⟩ .f32 :=
  layerLin
    (A₂ (layerRelu (A₁ (layerRelu (A₀ x) inv x w1l w1r b1)) inv (layerRelu (A₀ x) inv x w1l w1r b1) w2l w2r b2))
    inv
    (layerRelu (A₁ (layerRelu (A₀ x) inv x w1l w1r b1)) inv (layerRelu (A₀ x) inv x w1l w1r b1) w2l w2r b2)
    w3l w3r b3

end Cert.Sage

end
-- ==== Proof.KFoldDefs.lean ====
/-
  The kernel program's fold: the names it is read in.

  The neighbour sum of a feature array (its rows gathered at the edges' sources and added up at their targets), as
  the host operations of the edge list that both programs apply, at the two widths the encoder uses; the first and
  second layers' outputs as functions of the launch memory; and the fact that a buffer none of a stretch's
  operations writes is found after the stretch as it was before it.
-/
import proofs.«147737_j30219389895226_2_alg».proof.Proof.PatchedFrameKernelIdeal
import proofs.«147737_j30219389895226_2_alg».proof.Proof.SageSpec
import proofs.«147737_j30219389895226_2_alg».proof.Proof.Gen.ReferenceIdeal.Read
import Idealize.ShloMosaic.Lib.StableHlo.Run

set_option maxRecDepth 16384

noncomputable section

namespace Cert.KernelIdeal.KFold

open Cert.KernelIdeal Cert.KernelIdeal.Gen Cert.KernelIdeal.GenP
open Idealize.ShloMosaic Idealize.ShloMosaic.TcCoe Idealize.ShloMosaic.ValueIdx Idealize.SL.Sem Idealize.ShloMosaic.StableHlo
open Idealize.ShloMosaic.Pipeline (Dat Cfg Window)

/-- The neighbour sum of rows of width 128: the rows gathered at the edges' sources, added up at their targets. -/
def nbr128 (ei : (⟨Cert.ReferenceIdeal.S2x800000, .i32⟩ : BufTy).Contents (Elt Ideal)) (h : FVec Ideal Cert.ReferenceIdeal.S50000x128 .f32) :
    FVec Ideal Cert.ReferenceIdeal.S50000x128 .f32 :=
  Host.scatterAdd (F := Ideal) Cert.ReferenceIdeal.scatter_S50000x128_S800000x1_S800000x128_1_0_0_1 (Cert.ReferenceIdeal.Read.val_main_v20 (F := Ideal))
    (Cert.ReferenceIdeal.Read.val_main_v21 (F := Ideal) ei)
    (Host.gather Cert.ReferenceIdeal.gather_S50000x128_S800000x1_S800000x128_1_0_n_n_0_1_1128 h (Cert.ReferenceIdeal.Read.val_main_v18 (F := Ideal) ei))

/-- The same at width 256. -/
def nbr256 (ei : (⟨Cert.ReferenceIdeal.S2x800000, .i32⟩ : BufTy).Contents (Elt Ideal)) (h : FVec Ideal Cert.ReferenceIdeal.S50000x256 .f32) :
    FVec Ideal Cert.ReferenceIdeal.S50000x256 .f32 :=
  Host.scatterAdd (F := Ideal) Cert.ReferenceIdeal.scatter_S50000x256_S800000x1_S800000x256_1_0_0_1 (Cert.ReferenceIdeal.Read.val_main_v39 (F := Ideal))
    (Cert.ReferenceIdeal.Read.val_main_v40 (F := Ideal) ei)
    (Host.gather Cert.ReferenceIdeal.gather_S50000x256_S800000x1_S800000x256_1_0_n_n_0_1_1256 h (Cert.ReferenceIdeal.Read.val_main_v37 (F := Ideal) ei))

variable (m : (ℓ : Loc nD τ sig) → Buf (Elt Ideal) ℓ) (ρ : Dev nD → PrngReg)

/-- The first layer's output, as a function of the launch memory. -/
def h1 (c : Dev nD) : FVec Ideal Cert.ReferenceIdeal.S50000x256 .f32 := (Cert.Sage.layerRelu (nbr128 (m ((c : Thread nD τ).loc main_arg1)) (m ((c : Thread nD τ).loc main_arg0))) (Cert.ReferenceIdeal.Read.val_main_v12 (F := Ideal) (m ((c : Thread nD τ).loc main_arg1))) (m ((c : Thread nD τ).loc main_arg0)) (m ((c : Thread nD τ).loc main_arg2)) (m ((c : Thread nD τ).loc main_arg3)) (m ((c : Thread nD τ).loc main_arg4)))

/-- The second layer's output. -/
def h2 (c : Dev nD) : FVec Ideal Cert.ReferenceIdeal.S50000x256 .f32 := (Cert.Sage.layerRelu (nbr256 (m ((c : Thread nD τ).loc main_arg1)) (h1 m c)) (Cert.ReferenceIdeal.Read.val_main_v12 (F := Ideal) (m ((c : Thread nD τ).loc main_arg1))) (h1 m c) (m ((c : Thread nD τ).loc main_arg5)) (m ((c : Thread nD τ).loc main_arg6)) (m ((c : Thread nD τ).loc main_arg7)))

/-- A buffer none of a stretch's operations writes is found after the stretch as it was before. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

end Cert.KernelIdeal.KFold

end
-- ==== Proof.KFoldSrcDst.lean ====
/-
  The first host stretch, read at the edge sources and targets: row 0 and row 1 of the edge list, each cast to a vector.
-/
import proofs.«147737_j30219389895226_2_alg».proof.Proof.KFoldDefs

set_option maxRecDepth 16384

noncomputable section

namespace Cert.KernelIdeal.KFold

open Cert.KernelIdeal Cert.KernelIdeal.Gen Cert.KernelIdeal.GenP
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## After the first host stretch -/

theorem W1_src (c : Dev nD) : @Eq (IVec Cert.ReferenceIdeal.S800000 32) (W1 m ρ c (Proc.devRef .tc main_call0_v1)) (Cert.ReferenceIdeal.Read.val_main_v1 (F := Ideal) (m ((c : Thread nD τ).loc main_arg1))) := by
  show StableHlo.after hostOps0 (W0 m ρ c) (Proc.devRef .tc main_call0_v1) = _
  after_results_simp
  rfl

theorem W1_dst (c : Dev nD) : @Eq (IVec Cert.ReferenceIdeal.S800000 32) (W1 m ρ c (Proc.devRef .tc main_call0_v3)) (Cert.ReferenceIdeal.Read.val_main_v3 (F := Ideal) (m ((c : Thread nD τ).loc main_arg1))) := by
  show StableHlo.after hostOps0 (W0 m ρ c) (Proc.devRef .tc main_call0_v3) = _
  after_results_simp
  rfl

end Cert.KernelIdeal.KFold

end
-- ==== Proof.KFoldAgg0.lean ====
/-
  The first host stretch, read at the neighbour sum of the input features: the features' rows gathered at the
  edges' sources (an index below zero counted from the end) and added up at their targets.
-/
import proofs.«147737_j30219389895226_2_alg».proof.Proof.KFoldDefs

set_option maxRecDepth 16384

noncomputable section

namespace Cert.KernelIdeal.KFold

open Cert.KernelIdeal Cert.KernelIdeal.Gen Cert.KernelIdeal.GenP
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

theorem W1_agg (c : Dev nD) : @Eq (FVec Ideal Cert.ReferenceIdeal.S50000x128 .f32) (W1 m ρ c (Proc.devRef .tc main_call0_v22)) (nbr128 (m ((c : Thread nD τ).loc main_arg1)) (m ((c : Thread nD τ).loc main_arg0))) := by
  show StableHlo.after hostOps0 (W0 m ρ c) (Proc.devRef .tc main_call0_v22) = _
  after_results_simp
  rfl

end Cert.KernelIdeal.KFold

end
-- ==== Proof.KFoldInv.lean ====
/-
  The first host stretch, read at the inverse-degree column: one over the larger of the in-degree and one, per node.

  The kernel program casts the vector of inverse degrees to a column, the reference broadcasts it into one; entry
  (r, 0) of either is the vector's entry r.  The vector itself (a scatter-add of ones at the edges' targets, the
  maximum with one, the quotient) is the same composition of host operations in both programs and is never opened.
-/
import proofs.«147737_j30219389895226_2_alg».proof.Proof.KFoldDefs
import proofs.«147737_j30219389895226_2_alg».proof.Proof.LibKeepdims

set_option maxRecDepth 16384

noncomputable section

namespace Cert.KernelIdeal.KFold

open Cert.KernelIdeal Cert.KernelIdeal.Gen Cert.KernelIdeal.GenP
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The in-degrees: ones added up at the edges' targets. -/
theorem W1_deg (c : Dev nD) : @Eq (FVec Ideal Cert.ReferenceIdeal.S50000 .f32) (W1 m ρ c (Proc.devRef .tc main_call0_v7)) (Cert.ReferenceIdeal.Read.val_main_v7 (F := Ideal) (m ((c : Thread nD τ).loc main_arg1))) := by
  show StableHlo.after hostOps0 (W0 m ρ c) (Proc.devRef .tc main_call0_v7) = _
  after_results_simp
  rfl

/-- Their maximum with one, from the in-degrees' buffer. -/
theorem W1_degmax (c : Dev nD) : @Eq (FVec Ideal Cert.ReferenceIdeal.S50000 .f32) (W1 m ρ c (Proc.devRef .tc main_call0_v9))
    (maximumf (F := Ideal) (W1 m ρ c (Proc.devRef .tc main_call0_v7) : FVec Ideal S50000 .f32) (Cert.ReferenceIdeal.Read.val_main_v8 (F := Ideal))) := by
  show StableHlo.after hostOps0 (W0 m ρ c) (Proc.devRef .tc main_call0_v9)
    = maximumf (F := Ideal) (StableHlo.after hostOps0 (W0 m ρ c) (Proc.devRef .tc main_call0_v7) : FVec Ideal S50000 .f32) (Cert.ReferenceIdeal.Read.val_main_v8 (F := Ideal))
  after_results_simp
  rfl

/-- One over that, from the maximum's buffer. -/
theorem W1_invq (c : Dev nD) : @Eq (FVec Ideal Cert.ReferenceIdeal.S50000 .f32) (W1 m ρ c (Proc.devRef .tc main_call0_v11))
    (Host.divf (F := Ideal) (Cert.ReferenceIdeal.Read.val_main_v10 (F := Ideal)) (W1 m ρ c (Proc.devRef .tc main_call0_v9) : FVec Ideal S50000 .f32)) := by
  show StableHlo.after hostOps0 (W0 m ρ c) (Proc.devRef .tc main_call0_v11)
    = Host.divf (F := Ideal) (Cert.ReferenceIdeal.Read.val_main_v10 (F := Ideal)) (StableHlo.after hostOps0 (W0 m ρ c) (Proc.devRef .tc main_call0_v9) : FVec Ideal S50000 .f32)
  after_results_simp
  rfl

/-- The vector of inverse degrees, as the stretch leaves it: the three steps, one operation each. -/
theorem W1_invvec (c : Dev nD) : @Eq (FVec Ideal Cert.ReferenceIdeal.S50000 .f32) (W1 m ρ c (Proc.devRef .tc main_call0_v11))
    (Cert.ReferenceIdeal.Read.val_main_v11 (F := Ideal) (m ((c : Thread nD τ).loc main_arg1))) := by
  rw [W1_invq, W1_degmax, W1_deg]
  unfold Cert.ReferenceIdeal.Read.val_main_v11 Cert.ReferenceIdeal.Read.val_main_v9
  rfl

/-- The column buffer holds that vector cast to a column. -/
theorem W1_invcol (c : Dev nD) : @Eq (FVec Ideal Cert.ReferenceIdeal.S50000x1 .f32) (W1 m ρ c (Proc.devRef .tc main_call0_v12))
    (shapeCast S50000x1 (W1 m ρ c (Proc.devRef .tc main_call0_v11) : FVec Ideal S50000 .f32) shapeCasts_S50000_S50000x1) := by
  show StableHlo.after hostOps0 (W0 m ρ c) (Proc.devRef .tc main_call0_v12)
    = shapeCast S50000x1 (StableHlo.after hostOps0 (W0 m ρ c) (Proc.devRef .tc main_call0_v11) : FVec Ideal S50000 .f32) shapeCasts_S50000_S50000x1
  after_results_simp
  rfl

/-- The column as the reference names it. -/
theorem W1_inv (c : Dev nD) : @Eq (FVec Ideal Cert.ReferenceIdeal.S50000x1 .f32) (W1 m ρ c (Proc.devRef .tc main_call0_v12)) (Cert.ReferenceIdeal.Read.val_main_v12 (F := Ideal) (m ((c : Thread nD τ).loc main_arg1))) := by
  refine (W1_invcol m ρ c).trans ?_
  rw [W1_invvec]
  funext i
  obtain ⟨r, u, rfl⟩ : ∃ (r : Fin 50000) (u : Fin 1), i = ix2 r u := ⟨i 0, i 1, eq_ix2 i⟩
  unfold Cert.ReferenceIdeal.Read.val_main_v12
  rw [Cert.LibKeepdims.shapeCast_a_a1_apply, Cert.Sage.bcastToCol_apply]

end Cert.KernelIdeal.KFold

end
-- ==== Proof.KFoldArgs.lean ====
/-
  The first host stretch writes none of the program's arguments: each is found after it as in the launch memory.
-/
import proofs.«147737_j30219389895226_2_alg».proof.Proof.KFoldDefs

set_option maxRecDepth 16384

noncomputable section

namespace Cert.KernelIdeal.KFold

open Cert.KernelIdeal Cert.KernelIdeal.Gen Cert.KernelIdeal.GenP
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

theorem W1_arg0 (c : Dev nD) : W1 m ρ c (Proc.devRef .tc main_arg0) = m ((c : Thread nD τ).loc main_arg0) :=
  (show StableHlo.after hostOps0 (W0 m ρ c) (Proc.devRef .tc main_arg0) = W0 m ρ c (Proc.devRef .tc main_arg0) by host_keeps hostOps0).trans rfl

theorem W1_arg2 (c : Dev nD) : W1 m ρ c (Proc.devRef .tc main_arg2) = m ((c : Thread nD τ).loc main_arg2) :=
  (show StableHlo.after hostOps0 (W0 m ρ c) (Proc.devRef .tc main_arg2) = W0 m ρ c (Proc.devRef .tc main_arg2) by host_keeps hostOps0).trans rfl

theorem W1_arg3 (c : Dev nD) : W1 m ρ c (Proc.devRef .tc main_arg3) = m ((c : Thread nD τ).loc main_arg3) :=
  (show StableHlo.after hostOps0 (W0 m ρ c) (Proc.devRef .tc main_arg3) = W0 m ρ c (Proc.devRef .tc main_arg3) by host_keeps hostOps0).trans rfl

theorem W1_arg4 (c : Dev nD) : W1 m ρ c (Proc.devRef .tc main_arg4) = m ((c : Thread nD τ).loc main_arg4) :=
  (show StableHlo.after hostOps0 (W0 m ρ c) (Proc.devRef .tc main_arg4) = W0 m ρ c (Proc.devRef .tc main_arg4) by host_keeps hostOps0).trans rfl

theorem W1_arg5 (c : Dev nD) : W1 m ρ c (Proc.devRef .tc main_arg5) = m ((c : Thread nD τ).loc main_arg5) :=
  (show StableHlo.after hostOps0 (W0 m ρ c) (Proc.devRef .tc main_arg5) = W0 m ρ c (Proc.devRef .tc main_arg5) by host_keeps hostOps0).trans rfl

theorem W1_arg6 (c : Dev nD) : W1 m ρ c (Proc.devRef .tc main_arg6) = m ((c : Thread nD τ).loc main_arg6) :=
  (show StableHlo.after hostOps0 (W0 m ρ c) (Proc.devRef .tc main_arg6) = W0 m ρ c (Proc.devRef .tc main_arg6) by host_keeps hostOps0).trans rfl

theorem W1_arg7 (c : Dev nD) : W1 m ρ c (Proc.devRef .tc main_arg7) = m ((c : Thread nD τ).loc main_arg7) :=
  (show StableHlo.after hostOps0 (W0 m ρ c) (Proc.devRef .tc main_arg7) = W0 m ρ c (Proc.devRef .tc main_arg7) by host_keeps hostOps0).trans rfl

theorem W1_arg8 (c : Dev nD) : W1 m ρ c (Proc.devRef .tc main_arg8) = m ((c : Thread nD τ).loc main_arg8) :=
  (show StableHlo.after hostOps0 (W0 m ρ c) (Proc.devRef .tc main_arg8) = W0 m ρ c (Proc.devRef .tc main_arg8) by host_keeps hostOps0).trans rfl

theorem W1_arg9 (c : Dev nD) : W1 m ρ c (Proc.devRef .tc main_arg9) = m ((c : Thread nD τ).loc main_arg9) :=
  (show StableHlo.after hostOps0 (W0 m ρ c) (Proc.devRef .tc main_arg9) = W0 m ρ c (Proc.devRef .tc main_arg9) by host_keeps hostOps0).trans rfl

theorem W1_arg10 (c : Dev nD) : W1 m ρ c (Proc.devRef .tc main_arg10) = m ((c : Thread nD τ).loc main_arg10) :=
  (show StableHlo.after hostOps0 (W0 m ρ c) (Proc.devRef .tc main_arg10) = W0 m ρ c (Proc.devRef .tc main_arg10) by host_keeps hostOps0).trans rfl

end Cert.KernelIdeal.KFold

end
-- ==== Proof.SageRows.lean ====
/-
  A layer's entry depends on one row of its inputs.

  The value of a layer before its activation at entry (p, j) reads row p of the neighbour sums, of the
  inverse-degree column and of the features, column j of the two weight matrices and entry j of the bias, and
  nothing else.  So the value computed on a block of rows, at the block's row p, is the value computed on the whole
  arrays at the array's row r, as soon as the block's row p is the arrays' row r.
-/
import proofs.«147737_j30219389895226_2_alg».proof.Proof.SageEntry

noncomputable section

namespace Cert.Sage

open Idealize.ShloMosaic Idealize.ShloMosaic.ValueIdx

/-- Two layers whose inputs agree along row p of the one and row r of the other, in column j of the weights and at
    entry j of the bias, have the same value before the activation at (p, j) and (r, j). -/
theorem preact_congr {m m' k n : ℕ}
    (agg : FVec Ideal ⟨2, ![m, k]⟩ .f32) (inv : FVec Ideal ⟨2, ![m, 1]⟩ .f32) (x : FVec Ideal ⟨2, ![m, k]⟩ .f32)
    (wl wr : FVec Ideal ⟨2, ![k, n]⟩ .f32) (b : FVec Ideal ⟨1, ![n]⟩ .f32)
    (agg' : FVec Ideal ⟨2, ![m', k]⟩ .f32) (inv' : FVec Ideal ⟨2, ![m', 1]⟩ .f32) (x' : FVec Ideal ⟨2, ![m', k]⟩ .f32)
    (wl' wr' : FVec Ideal ⟨2, ![k, n]⟩ .f32) (b' : FVec Ideal ⟨1, ![n]⟩ .f32)
    (p : Fin m) (r : Fin m') (j : Fin n)
    (hagg : ∀ q : Fin k, agg (ix2 p q) = agg' (ix2 r q)) (hinv : inv (ix2 p (0 : Fin 1)) = inv' (ix2 r (0 : Fin 1)))
    (hx : ∀ q : Fin k, x (ix2 p q) = x' (ix2 r q))
    (hwl : ∀ q : Fin k, wl (ix2 q j) = wl' (ix2 q j)) (hwr : ∀ q : Fin k, wr (ix2 q j) = wr' (ix2 q j))
    (hb : b (ix1 j) = b' (ix1 j)) :
    preact agg inv x wl wr b p j = preact agg' inv' x' wl' wr' b' r j := by
  unfold preact
  refine congrArg₂ _ (congrArg₂ _ (Finset.sum_congr rfl fun q _ => ?_) (Finset.sum_congr rfl fun q _ => ?_)) hb
  · rw [hagg q, hinv, hwl q]
  · rw [hx q, hwr q]

end Cert.Sage

end
-- ==== Proof.KLayer0.lean ====
/-
  Kernel launch 0 of the encoder: the array it leaves is one layer of its input arrays.

  The launch walks 25 blocks of 2000 rows.  At each it reads rows [2000 t, 2000 t + 2000) of the neighbour sums, of
  the inverse-degree column and of the features, the whole of both weight matrices and of the bias, and writes
  rows [2000 t, 2000 t + 2000) of the output: the layer's value followed by the maximum with zero,
  computed on the block.  Since an entry of a layer depends on one row of its inputs only, what block t receives is
  block t of the layer computed on the whole arrays; the 25 blocks cover the 50000 rows, so the array the launch
  leaves IS that layer.  Everything is stated for any contents `V` of the buffers when the launch is entered.
-/
import proofs.«147737_j30219389895226_2_alg».proof.Proof.PatchedFrameKernelIdeal
import proofs.«147737_j30219389895226_2_alg».proof.Proof.SageSpec
import proofs.«147737_j30219389895226_2_alg».proof.Proof.SageRows

set_option maxRecDepth 16384

noncomputable section

namespace Cert.KernelIdeal.KLayer0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the body stores, at entry (p, j) of its block: the layer's value on the block's rows, then the maximum with zero. -/
theorem pay_apply (v0 : Vec Ideal S2000x128 .f32) (v2 : Vec Ideal S2000x1 .f32) (v7 : Vec Ideal S2000x128 .f32)
    (vl vr : Vec Ideal S128x256 .f32) (vb : Vec Ideal S256 .f32) (p : Fin 2000) (j : Fin 256) :
    k0_pay1 (F := Ideal) v0 v2 v7 vl vr vb (ix2 p j) = max (Cert.Sage.preact v0 v2 v7 vl vr vb p j) Cert.Sage.zeroW := by
  unfold k0_pay1
  refine (congrArg₂ max (Cert.Sage.kernel_preact_apply dot_S2000x128_S128x256_S2000x256_1_0_0_1_n_n rfl broadcasts_S2000x1_S2000x128 shapeCasts_S256_S1x256 broadcasts_S1x256_S2000x256 bitsLt_bf16_f32
      (shapeCast S2000x128 v0 shapeCasts_S2000x128_S2000x128) (shapeCast S2000x1 v2 shapeCasts_S2000x1_S2000x1) v7 vl vr vb p j) rfl).trans ?_
  rw [shapeCast_self, shapeCast_self]
  rfl

/-- The printed index maps over the grid: the three row-blocked inputs move with the output's row block, the
    weights and the bias stay at block zero, and the output's row block is one of the 25. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (1 : Fin 2) = 0 ∧ win0_6.index t (0 : Fin 2) ≤ 24 :=
  (by decide +kernel : ∀ t : Fin grid0.N, _)

/-- Every one of the 25 row blocks is some point's. -/
theorem idx_onto : ∀ q : Fin 25, ∃ t : Fin cfg0.N, win0_6.index t = ![q.val, 0] :=
  (by decide +kernel : ∀ q : Fin 25, ∃ t : Fin grid0.N, win0_6.index t = ![q.val, 0])

/-! ## The input blocks, read by coordinates -/

theorem read_agg (c : Dev nD) (t : Fin cfg0.N) (p : Fin 2000) (q : Fin 128) (r : Fin 50000)
    (hr : r.val = win0_6.index t (0 : Fin 2) * 2000 + p.val) :
    iblk0 V c 0 t (ix2 p q) = V c main_call0_v22 (ix2 r q) := by
  obtain ⟨e0, e1, -⟩ := idx_facts t
  show V c main_call0_v22 (((cfg0.win 0).blk t).view.emb (ix2 p q)) = V c main_call0_v22 (ix2 r q)
  refine congrArg (V c main_call0_v22) (funext fun a => Fin.ext ?_)
  match a with
  | ⟨0, _⟩ => show win0_0.index t (0 : Fin 2) * 2000 + 1 * p.val = r.val; omega
  | ⟨1, _⟩ => show win0_0.index t (1 : Fin 2) * 128 + 1 * q.val = q.val; omega

theorem read_inv (c : Dev nD) (t : Fin cfg0.N) (p : Fin 2000) (r : Fin 50000)
    (hr : r.val = win0_6.index t (0 : Fin 2) * 2000 + p.val) :
    iblk0 V c 1 t (ix2 p (0 : Fin 1)) = V c main_call0_v12 (ix2 r (0 : Fin 1)) := by
  obtain ⟨-, -, e0, e1, -⟩ := idx_facts t
  show V c main_call0_v12 (((cfg0.win 1).blk t).view.emb (ix2 p (0 : Fin 1))) = V c main_call0_v12 (ix2 r (0 : Fin 1))
  refine congrArg (V c main_call0_v12) (funext fun a => Fin.ext ?_)
  match a with
  | ⟨0, _⟩ => show win0_1.index t (0 : Fin 2) * 2000 + 1 * p.val = r.val; omega
  | ⟨1, _⟩ => show win0_1.index t (1 : Fin 2) * 1 + 1 * 0 = 0; omega

theorem read_x (c : Dev nD) (t : Fin cfg0.N) (p : Fin 2000) (q : Fin 128) (r : Fin 50000)
    (hr : r.val = win0_6.index t (0 : Fin 2) * 2000 + p.val) :
    iblk0 V c 2 t (ix2 p q) = V c main_arg0 (ix2 r q) := by
  obtain ⟨-, -, -, -, e0, e1, -⟩ := idx_facts t
  show V c main_arg0 (((cfg0.win 2).blk t).view.emb (ix2 p q)) = V c main_arg0 (ix2 r q)
  refine congrArg (V c main_arg0) (funext fun a => Fin.ext ?_)
  match a with
  | ⟨0, _⟩ => show win0_2.index t (0 : Fin 2) * 2000 + 1 * p.val = r.val; omega
  | ⟨1, _⟩ => show win0_2.index t (1 : Fin 2) * 128 + 1 * q.val = q.val; omega

theorem read_wl (c : Dev nD) (t : Fin cfg0.N) (q : Fin 128) (j : Fin 256) :
    iblk0 V c 3 t (ix2 q j) = V c main_arg2 (ix2 q j) := by
  obtain ⟨-, -, -, -, -, -, e0, e1, -⟩ := idx_facts t
  show V c main_arg2 (((cfg0.win 3).blk t).view.emb (ix2 q j)) = V c main_arg2 (ix2 q j)
  refine congrArg (V c main_arg2) (funext fun a => Fin.ext ?_)
  match a with
  | ⟨0, _⟩ => show win0_3.index t (0 : Fin 2) * 128 + 1 * q.val = q.val; omega
  | ⟨1, _⟩ => show win0_3.index t (1 : Fin 2) * 256 + 1 * j.val = j.val; omega

theorem read_wr (c : Dev nD) (t : Fin cfg0.N) (q : Fin 128) (j : Fin 256) :
    iblk0 V c 4 t (ix2 q j) = V c main_arg3 (ix2 q j) := by
  obtain ⟨-, -, -, -, -, -, -, -, e0, e1, -⟩ := idx_facts t
  show V c main_arg3 (((cfg0.win 4).blk t).view.emb (ix2 q j)) = V c main_arg3 (ix2 q j)
  refine congrArg (V c main_arg3) (funext fun a => Fin.ext ?_)
  match a with
  | ⟨0, _⟩ => show win0_4.index t (0 : Fin 2) * 128 + 1 * q.val = q.val; omega
  | ⟨1, _⟩ => show win0_4.index t (1 : Fin 2) * 256 + 1 * j.val = j.val; omega

theorem read_b (c : Dev nD) (t : Fin cfg0.N) (j : Fin 256) :
    iblk0 V c 5 t (ix1 j) = V c main_arg4 (ix1 j) := by
  obtain ⟨-, -, -, -, -, -, -, -, -, -, e0, -⟩ := idx_facts t
  show V c main_arg4 (((cfg0.win 5).blk t).view.emb (ix1 j)) = V c main_arg4 (ix1 j)
  refine congrArg (V c main_arg4) (funext fun a => Fin.ext ?_)
  match a with
  | ⟨0, _⟩ => show win0_5.index t (0 : Fin 1) * 256 + 1 * j.val = j.val; omega

/-! ## From the blocks to the array -/

/-- What point `t` writes back is block `t` of the layer computed on the whole arrays. -/
theorem flushed_eq (c : Dev nD) (t : Fin cfg0.N) :
    (dat0 V c).flushed 6 t = ((cfg0.win 6).blk t).view.read (Elt Ideal)
      (Cert.Sage.layerRelu (V c main_call0_v22) (V c main_call0_v12) (V c main_arg0) (V c main_arg2) (V c main_arg3) (V c main_arg4)) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S2000x1) hz2, View.ld_unit_zero (S := S128x256) hz2,
    View.ld_unit_zero (S := S256) hz1]
  funext y
  obtain ⟨p, j, rfl⟩ : ∃ (p : Fin 2000) (j : Fin 256), y = ix2 p j := ⟨y 0, y 1, eq_ix2 y⟩
  obtain ⟨-, -, -, -, -, -, -, -, -, -, -, e61, e6le⟩ := idx_facts t
  have hlt : win0_6.index t (0 : Fin 2) * 2000 + p.val < 50000 := by have := p.isLt; omega
  have hemb : ((cfg0.win 6).blk t).view.emb (ix2 p j)
      = ix2 (⟨win0_6.index t (0 : Fin 2) * 2000 + p.val, hlt⟩ : Fin 50000) j := funext fun a => Fin.ext (by
    match a with
    | ⟨0, _⟩ => show win0_6.index t (0 : Fin 2) * 2000 + 1 * p.val = win0_6.index t (0 : Fin 2) * 2000 + p.val; omega
    | ⟨1, _⟩ => show win0_6.index t (1 : Fin 2) * 256 + 1 * j.val = j.val; omega)
  show k0_pay1 (iblk0 V c 0 t) (iblk0 V c 1 t) (iblk0 V c 2 t) (iblk0 V c 3 t) (iblk0 V c 4 t) (iblk0 V c 5 t) (ix2 p j)
    = Cert.Sage.layerRelu (V c main_call0_v22) (V c main_call0_v12) (V c main_arg0) (V c main_arg2) (V c main_arg3) (V c main_arg4) (((cfg0.win 6).blk t).view.emb (ix2 p j))
  rw [hemb, Cert.Sage.layerRelu_ix2]
  refine (pay_apply (iblk0 V c 0 t) (iblk0 V c 1 t) (iblk0 V c 2 t) (iblk0 V c 3 t) (iblk0 V c 4 t) (iblk0 V c 5 t) p j).trans ?_
  refine congrArg (fun v => max v Cert.Sage.zeroW) ?_
  exact Cert.Sage.preact_congr (iblk0 V c 0 t) (iblk0 V c 1 t) (iblk0 V c 2 t) (iblk0 V c 3 t) (iblk0 V c 4 t) (iblk0 V c 5 t)
    (V c main_call0_v22) (V c main_call0_v12) (V c main_arg0) (V c main_arg2) (V c main_arg3) (V c main_arg4) p ⟨win0_6.index t (0 : Fin 2) * 2000 + p.val, hlt⟩ j
    (fun q => read_agg V c t p q _ rfl) (read_inv V c t p _ rfl) (fun q => read_x V c t p q _ rfl)
    (fun q => read_wl V c t q j) (fun q => read_wr V c t q j) (read_b V c t j)

/-- An index of the output array is in point `t`'s block iff each coordinate is in the block's range on its axis. -/
theorem mem_blk (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_call0_v23).slice (win0_6.rect t)).set ↔ _
  rw [View.set_slice_whole, Rect.mem_set_unit]
  exact Iff.rfl

/-- Row r of the output lies in the block of point number r / 2000. -/
theorem cover (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

/-- The array the launch leaves: the layer of the arrays it found. -/
theorem arr (c : Dev nD) :
    (dat0 V c).arrAt 6 cfg0.N
      = Cert.Sage.layerRelu (V c main_call0_v22) (V c main_call0_v12) (V c main_arg0) (V c main_arg2) (V c main_arg3) (V c main_arg4) :=
  (dat0 V c).arrAt_eq_of_cover 6 _ (fun t _ => flushed_eq V c t) (fun i => cover i)

end Cert.KernelIdeal.KLayer0

end
-- ==== Proof.KFoldLayer1.lean ====
/-
  The fold through the first launch and the second host stretch: the first launch leaves the first layer of the
  launch memory; the stretch after it computes that layer's neighbour sum; the column, the edge vectors and the
  later layers' weights are found as they were.
-/
import proofs.«147737_j30219389895226_2_alg».proof.Proof.KFoldSrcDst
import proofs.«147737_j30219389895226_2_alg».proof.Proof.KFoldAgg0
import proofs.«147737_j30219389895226_2_alg».proof.Proof.KFoldInv
import proofs.«147737_j30219389895226_2_alg».proof.Proof.KFoldArgs
import proofs.«147737_j30219389895226_2_alg».proof.Proof.KLayer0

set_option maxRecDepth 16384

noncomputable section

namespace Cert.KernelIdeal.KFold

open Cert.KernelIdeal Cert.KernelIdeal.Gen Cert.KernelIdeal.GenP
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## After the first launch -/

/-- The first launch leaves the first layer of the launch memory. -/
theorem W2_h1 (c : Dev nD) : @Eq (FVec Ideal Cert.ReferenceIdeal.S50000x256 .f32) (W2 m ρ c (Proc.devRef .tc main_call0_v23)) (h1 m c) := by
  refine (W2_arr m ρ c 6).trans ((KLayer0.arr (V1 m ρ) c).trans ?_)
  show Cert.Sage.layerRelu (W1 m ρ c (Proc.devRef .tc main_call0_v22)) (W1 m ρ c (Proc.devRef .tc main_call0_v12)) (W1 m ρ c (Proc.devRef .tc main_arg0)) (W1 m ρ c (Proc.devRef .tc main_arg2)) (W1 m ρ c (Proc.devRef .tc main_arg3)) (W1 m ρ c (Proc.devRef .tc main_arg4)) = _
  rw [W1_agg, W1_inv, W1_arg0, W1_arg2, W1_arg3, W1_arg4]
  rfl

theorem W2_src (c : Dev nD) : @Eq (IVec Cert.ReferenceIdeal.S800000 32) (W2 m ρ c (Proc.devRef .tc main_call0_v1)) (Cert.ReferenceIdeal.Read.val_main_v1 (F := Ideal) (m ((c : Thread nD τ).loc main_arg1))) :=
  (W2_of_ne m ρ c main_call0_v1 (by decide)).trans (W1_src m ρ c)

theorem W2_dst (c : Dev nD) : @Eq (IVec Cert.ReferenceIdeal.S800000 32) (W2 m ρ c (Proc.devRef .tc main_call0_v3)) (Cert.ReferenceIdeal.Read.val_main_v3 (F := Ideal) (m ((c : Thread nD τ).loc main_arg1))) :=
  (W2_of_ne m ρ c main_call0_v3 (by decide)).trans (W1_dst m ρ c)

theorem W2_inv (c : Dev nD) : @Eq (FVec Ideal Cert.ReferenceIdeal.S50000x1 .f32) (W2 m ρ c (Proc.devRef .tc main_call0_v12)) (Cert.ReferenceIdeal.Read.val_main_v12 (F := Ideal) (m ((c : Thread nD τ).loc main_arg1))) :=
  ((W2_arr m ρ c 1).trans (((dat0 (V1 m ρ) c).arrAt_in 1 rfl _).trans (A_eq0 (V1 m ρ) c 1))).trans (W1_inv m ρ c)

theorem W2_arg5 (c : Dev nD) : W2 m ρ c (Proc.devRef .tc main_arg5) = m ((c : Thread nD τ).loc main_arg5) :=
  (W2_of_ne m ρ c main_arg5 (by decide)).trans (W1_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg9 (c : Dev nD) : W2 m ρ c (Proc.devRef .tc main_arg9) = m ((c : Thread nD τ).loc main_arg9) :=
  (W2_of_ne m ρ c main_arg9 (by decide)).trans (W1_arg9 m ρ c)

theorem W2_arg10 (c : Dev nD) : W2 m ρ c (Proc.devRef .tc main_arg10) = m ((c : Thread nD τ).loc main_arg10) :=
  (W2_of_ne m ρ c main_arg10 (by decide)).trans (W1_arg10 m ρ c)

/-! ## After the second host stretch -/

/-- The second stretch gathers and adds up the first layer's rows along the same edges. -/
theorem W3_agg (c : Dev nD) : @Eq (FVec Ideal Cert.ReferenceIdeal.S50000x256 .f32) (W3 m ρ c (Proc.devRef .tc main_call0_v33)) (nbr256 (m ((c : Thread nD τ).loc main_arg1)) (h1 m c)) := by
  have e : @Eq (FVec Ideal Cert.ReferenceIdeal.S50000x256 .f32) (W3 m ρ c (Proc.devRef .tc main_call0_v33))
      (Host.scatterAdd (F := Ideal) Cert.ReferenceIdeal.scatter_S50000x256_S800000x1_S800000x256_1_0_0_1 (Cert.ReferenceIdeal.Read.val_main_v39 (F := Ideal))
        (broadcastInDim S800000x1 ![0] bcast_S800000_S800000x1_0 (W2 m ρ c (Proc.devRef .tc main_call0_v3) : IVec Cert.ReferenceIdeal.S800000 32))
        (Host.gather Cert.ReferenceIdeal.gather_S50000x256_S800000x1_S800000x256_1_0_n_n_0_1_1256
          (W2 m ρ c (Proc.devRef .tc main_call0_v23) : FVec Ideal Cert.ReferenceIdeal.S50000x256 .f32)
          (broadcastInDim S800000x1 ![0] bcast_S800000_S800000x1_0
            (select (cmpi .slt (W2 m ρ c (Proc.devRef .tc main_call0_v1) : IVec Cert.ReferenceIdeal.S800000 32) (Cert.ReferenceIdeal.Read.val_main_v32 (F := Ideal)))
              (addi (W2 m ρ c (Proc.devRef .tc main_call0_v1) : IVec Cert.ReferenceIdeal.S800000 32) (Cert.ReferenceIdeal.Read.val_main_v34 (F := Ideal)))
              (W2 m ρ c (Proc.devRef .tc main_call0_v1) : IVec Cert.ReferenceIdeal.S800000 32))))) := by
    show StableHlo.after hostOps1 (W2 m ρ c) (Proc.devRef .tc main_call0_v33) = _
    generalize W2 m ρ c = F
    after_results_simp
    rfl
  rw [e, W2_h1, W2_src, W2_dst]
  rfl

theorem W3_h1 (c : Dev nD) : @Eq (FVec Ideal Cert.ReferenceIdeal.S50000x256 .f32) (W3 m ρ c (Proc.devRef .tc main_call0_v23)) (h1 m c) :=
  (show StableHlo.after hostOps1 (W2 m ρ c) (Proc.devRef .tc main_call0_v23) = W2 m ρ c (Proc.devRef .tc main_call0_v23) by host_keeps hostOps1).trans (W2_h1 m ρ c)

theorem W3_inv (c : Dev nD) : @Eq (FVec Ideal Cert.ReferenceIdeal.S50000x1 .f32) (W3 m ρ c (Proc.devRef .tc main_call0_v12)) (Cert.ReferenceIdeal.Read.val_main_v12 (F := Ideal) (m ((c : Thread nD τ).loc main_arg1))) :=
  (show StableHlo.after hostOps1 (W2 m ρ c) (Proc.devRef .tc main_call0_v12) = W2 m ρ c (Proc.devRef .tc main_call0_v12) by host_keeps hostOps1).trans (W2_inv m ρ c)

theorem W3_src (c : Dev nD) : @Eq (IVec Cert.ReferenceIdeal.S800000 32) (W3 m ρ c (Proc.devRef .tc main_call0_v1)) (Cert.ReferenceIdeal.Read.val_main_v1 (F := Ideal) (m ((c : Thread nD τ).loc main_arg1))) :=
  (show StableHlo.after hostOps1 (W2 m ρ c) (Proc.devRef .tc main_call0_v1) = W2 m ρ c (Proc.devRef .tc main_call0_v1) by host_keeps hostOps1).trans (W2_src m ρ c)

theorem W3_dst (c : Dev nD) : @Eq (IVec Cert.ReferenceIdeal.S800000 32) (W3 m ρ c (Proc.devRef .tc main_call0_v3)) (Cert.ReferenceIdeal.Read.val_main_v3 (F := Ideal) (m ((c : Thread nD τ).loc main_arg1))) :=
  (show StableHlo.after hostOps1 (W2 m ρ c) (Proc.devRef .tc main_call0_v3) = W2 m ρ c (Proc.devRef .tc main_call0_v3) by host_keeps hostOps1).trans (W2_dst m ρ c)

theorem W3_arg5 (c : Dev nD) : W3 m ρ c (Proc.devRef .tc main_arg5) = m ((c : Thread nD τ).loc main_arg5) :=
  (show StableHlo.after hostOps1 (W2 m ρ c) (Proc.devRef .tc main_arg5) = W2 m ρ c (Proc.devRef .tc main_arg5) by host_keeps hostOps1).trans (W2_arg5 m ρ c)

theorem W3_arg6 (c : Dev nD) : W3 m ρ c (Proc.devRef .tc main_arg6) = m ((c : Thread nD τ).loc main_arg6) :=
  (show StableHlo.after hostOps1 (W2 m ρ c) (Proc.devRef .tc main_arg6) = W2 m ρ c (Proc.devRef .tc main_arg6) by host_keeps hostOps1).trans (W2_arg6 m ρ c)

theorem W3_arg7 (c : Dev nD) : W3 m ρ c (Proc.devRef .tc main_arg7) = m ((c : Thread nD τ).loc main_arg7) :=
  (show StableHlo.after hostOps1 (W2 m ρ c) (Proc.devRef .tc main_arg7) = W2 m ρ c (Proc.devRef .tc main_arg7) by host_keeps hostOps1).trans (W2_arg7 m ρ c)

theorem W3_arg8 (c : Dev nD) : W3 m ρ c (Proc.devRef .tc main_arg8) = m ((c : Thread nD τ).loc main_arg8) :=
  (show StableHlo.after hostOps1 (W2 m ρ c) (Proc.devRef .tc main_arg8) = W2 m ρ c (Proc.devRef .tc main_arg8) by host_keeps hostOps1).trans (W2_arg8 m ρ c)

theorem W3_arg9 (c : Dev nD) : W3 m ρ c (Proc.devRef .tc main_arg9) = m ((c : Thread nD τ).loc main_arg9) :=
  (show StableHlo.after hostOps1 (W2 m ρ c) (Proc.devRef .tc main_arg9) = W2 m ρ c (Proc.devRef .tc main_arg9) by host_keeps hostOps1).trans (W2_arg9 m ρ c)

theorem W3_arg10 (c : Dev nD) : W3 m ρ c (Proc.devRef .tc main_arg10) = m ((c : Thread nD τ).loc main_arg10) :=
  (show StableHlo.after hostOps1 (W2 m ρ c) (Proc.devRef .tc main_arg10) = W2 m ρ c (Proc.devRef .tc main_arg10) by host_keeps hostOps1).trans (W2_arg10 m ρ c)

end Cert.KernelIdeal.KFold

end
-- ==== Proof.KLayer1.lean ====
/-
  Kernel launch 1 of the encoder: the array it leaves is one layer of its input arrays.

  The launch walks 25 blocks of 2000 rows.  At each it reads rows [2000 t, 2000 t + 2000) of the neighbour sums, of
  the inverse-degree column and of the features, the whole of both weight matrices and of the bias, and writes
  rows [2000 t, 2000 t + 2000) of the output: the layer's value followed by the maximum with zero,
  computed on the block.  Since an entry of a layer depends on one row of its inputs only, what block t receives is
  block t of the layer computed on the whole arrays; the 25 blocks cover the 50000 rows, so the array the launch
  leaves IS that layer.  Everything is stated for any contents `V` of the buffers when the launch is entered.
-/
import proofs.«147737_j30219389895226_2_alg».proof.Proof.PatchedFrameKernelIdeal
import proofs.«147737_j30219389895226_2_alg».proof.Proof.SageSpec
import proofs.«147737_j30219389895226_2_alg».proof.Proof.SageRows

set_option maxRecDepth 16384

noncomputable section

namespace Cert.KernelIdeal.KLayer1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the body stores, at entry (p, j) of its block: the layer's value on the block's rows, then the maximum with zero. -/
theorem pay_apply (v0 : Vec Ideal S2000x256 .f32) (v2 : Vec Ideal S2000x1 .f32) (v7 : Vec Ideal S2000x256 .f32)
    (vl vr : Vec Ideal S256x256 .f32) (vb : Vec Ideal S256 .f32) (p : Fin 2000) (j : Fin 256) :
    k1_pay1 (F := Ideal) v0 v2 v7 vl vr vb (ix2 p j) = max (Cert.Sage.preact v0 v2 v7 vl vr vb p j) Cert.Sage.zeroW := by
  unfold k1_pay1
  refine (congrArg₂ max (Cert.Sage.kernel_preact_apply dot_S2000x256_S256x256_S2000x256_1_0_0_1_n_n rfl broadcasts_S2000x1_S2000x256 shapeCasts_S256_S1x256 broadcasts_S1x256_S2000x256 bitsLt_bf16_f32
      (shapeCast S2000x256 v0 shapeCasts_S2000x256_S2000x256) (shapeCast S2000x1 v2 shapeCasts_S2000x1_S2000x1) (shapeCast S2000x256 v7 shapeCasts_S2000x256_S2000x256) vl vr vb p j) rfl).trans ?_
  rw [shapeCast_self, shapeCast_self, shapeCast_self]
  rfl

/-- The printed index maps over the grid: the three row-blocked inputs move with the output's row block, the
    weights and the bias stay at block zero, and the output's row block is one of the 25. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (1 : Fin 2) = 0 ∧ win1_6.index t (0 : Fin 2) ≤ 24 :=
  (by decide +kernel : ∀ t : Fin grid1.N, _)

/-- Every one of the 25 row blocks is some point's. -/
theorem idx_onto : ∀ q : Fin 25, ∃ t : Fin cfg1.N, win1_6.index t = ![q.val, 0] :=
  (by decide +kernel : ∀ q : Fin 25, ∃ t : Fin grid1.N, win1_6.index t = ![q.val, 0])

/-! ## The input blocks, read by coordinates -/

theorem read_agg (c : Dev nD) (t : Fin cfg1.N) (p : Fin 2000) (q : Fin 256) (r : Fin 50000)
    (hr : r.val = win1_6.index t (0 : Fin 2) * 2000 + p.val) :
    iblk1 V c 0 t (ix2 p q) = V c main_call0_v33 (ix2 r q) := by
  obtain ⟨e0, e1, -⟩ := idx_facts t
  show V c main_call0_v33 (((cfg1.win 0).blk t).view.emb (ix2 p q)) = V c main_call0_v33 (ix2 r q)
  refine congrArg (V c main_call0_v33) (funext fun a => Fin.ext ?_)
  match a with
  | ⟨0, _⟩ => show win1_0.index t (0 : Fin 2) * 2000 + 1 * p.val = r.val; omega
  | ⟨1, _⟩ => show win1_0.index t (1 : Fin 2) * 256 + 1 * q.val = q.val; omega

theorem read_inv (c : Dev nD) (t : Fin cfg1.N) (p : Fin 2000) (r : Fin 50000)
    (hr : r.val = win1_6.index t (0 : Fin 2) * 2000 + p.val) :
    iblk1 V c 1 t (ix2 p (0 : Fin 1)) = V c main_call0_v12 (ix2 r (0 : Fin 1)) := by
  obtain ⟨-, -, e0, e1, -⟩ := idx_facts t
  show V c main_call0_v12 (((cfg1.win 1).blk t).view.emb (ix2 p (0 : Fin 1))) = V c main_call0_v12 (ix2 r (0 : Fin 1))
  refine congrArg (V c main_call0_v12) (funext fun a => Fin.ext ?_)
  match a with
  | ⟨0, _⟩ => show win1_1.index t (0 : Fin 2) * 2000 + 1 * p.val = r.val; omega
  | ⟨1, _⟩ => show win1_1.index t (1 : Fin 2) * 1 + 1 * 0 = 0; omega

theorem read_x (c : Dev nD) (t : Fin cfg1.N) (p : Fin 2000) (q : Fin 256) (r : Fin 50000)
    (hr : r.val = win1_6.index t (0 : Fin 2) * 2000 + p.val) :
    iblk1 V c 2 t (ix2 p q) = V c main_call0_v23 (ix2 r q) := by
  obtain ⟨-, -, -, -, e0, e1, -⟩ := idx_facts t
  show V c main_call0_v23 (((cfg1.win 2).blk t).view.emb (ix2 p q)) = V c main_call0_v23 (ix2 r q)
  refine congrArg (V c main_call0_v23) (funext fun a => Fin.ext ?_)
  match a with
  | ⟨0, _⟩ => show win1_2.index t (0 : Fin 2) * 2000 + 1 * p.val = r.val; omega
  | ⟨1, _⟩ => show win1_2.index t (1 : Fin 2) * 256 + 1 * q.val = q.val; omega

theorem read_wl (c : Dev nD) (t : Fin cfg1.N) (q : Fin 256) (j : Fin 256) :
    iblk1 V c 3 t (ix2 q j) = V c main_arg5 (ix2 q j) := by
  obtain ⟨-, -, -, -, -, -, e0, e1, -⟩ := idx_facts t
  show V c main_arg5 (((cfg1.win 3).blk t).view.emb (ix2 q j)) = V c main_arg5 (ix2 q j)
  refine congrArg (V c main_arg5) (funext fun a => Fin.ext ?_)
  match a with
  | ⟨0, _⟩ => show win1_3.index t (0 : Fin 2) * 256 + 1 * q.val = q.val; omega
  | ⟨1, _⟩ => show win1_3.index t (1 : Fin 2) * 256 + 1 * j.val = j.val; omega

theorem read_wr (c : Dev nD) (t : Fin cfg1.N) (q : Fin 256) (j : Fin 256) :
    iblk1 V c 4 t (ix2 q j) = V c main_arg6 (ix2 q j) := by
  obtain ⟨-, -, -, -, -, -, -, -, e0, e1, -⟩ := idx_facts t
  show V c main_arg6 (((cfg1.win 4).blk t).view.emb (ix2 q j)) = V c main_arg6 (ix2 q j)
  refine congrArg (V c main_arg6) (funext fun a => Fin.ext ?_)
  match a with
  | ⟨0, _⟩ => show win1_4.index t (0 : Fin 2) * 256 + 1 * q.val = q.val; omega
  | ⟨1, _⟩ => show win1_4.index t (1 : Fin 2) * 256 + 1 * j.val = j.val; omega

theorem read_b (c : Dev nD) (t : Fin cfg1.N) (j : Fin 256) :
    iblk1 V c 5 t (ix1 j) = V c main_arg7 (ix1 j) := by
  obtain ⟨-, -, -, -, -, -, -, -, -, -, e0, -⟩ := idx_facts t
  show V c main_arg7 (((cfg1.win 5).blk t).view.emb (ix1 j)) = V c main_arg7 (ix1 j)
  refine congrArg (V c main_arg7) (funext fun a => Fin.ext ?_)
  match a with
  | ⟨0, _⟩ => show win1_5.index t (0 : Fin 1) * 256 + 1 * j.val = j.val; omega

/-! ## From the blocks to the array -/

/-- What point `t` writes back is block `t` of the layer computed on the whole arrays. -/
theorem flushed_eq (c : Dev nD) (t : Fin cfg1.N) :
    (dat1 V c).flushed 6 t = ((cfg1.win 6).blk t).view.read (Elt Ideal)
      (Cert.Sage.layerRelu (V c main_call0_v33) (V c main_call0_v12) (V c main_call0_v23) (V c main_arg5) (V c main_arg6) (V c main_arg7)) := by
  show (cfg1.win 6).cut (grid1.coords t) ((dat1 V c).after 6 t) = _
  rw [after1_6]
  unfold out1_6
  rw [View.canon_unit_zero hz2]
  simp only [View.ld_unit_zero (S := S2000x256) hz2, View.ld_unit_zero (S := S2000x1) hz2, View.ld_unit_zero (S := S256x256) hz2,
    View.ld_unit_zero (S := S256) hz1]
  funext y
  obtain ⟨p, j, rfl⟩ : ∃ (p : Fin 2000) (j : Fin 256), y = ix2 p j := ⟨y 0, y 1, eq_ix2 y⟩
  obtain ⟨-, -, -, -, -, -, -, -, -, -, -, e61, e6le⟩ := idx_facts t
  have hlt : win1_6.index t (0 : Fin 2) * 2000 + p.val < 50000 := by have := p.isLt; omega
  have hemb : ((cfg1.win 6).blk t).view.emb (ix2 p j)
      = ix2 (⟨win1_6.index t (0 : Fin 2) * 2000 + p.val, hlt⟩ : Fin 50000) j := funext fun a => Fin.ext (by
    match a with
    | ⟨0, _⟩ => show win1_6.index t (0 : Fin 2) * 2000 + 1 * p.val = win1_6.index t (0 : Fin 2) * 2000 + p.val; omega
    | ⟨1, _⟩ => show win1_6.index t (1 : Fin 2) * 256 + 1 * j.val = j.val; omega)
  show k1_pay1 (iblk1 V c 0 t) (iblk1 V c 1 t) (iblk1 V c 2 t) (iblk1 V c 3 t) (iblk1 V c 4 t) (iblk1 V c 5 t) (ix2 p j)
    = Cert.Sage.layerRelu (V c main_call0_v33) (V c main_call0_v12) (V c main_call0_v23) (V c main_arg5) (V c main_arg6) (V c main_arg7) (((cfg1.win 6).blk t).view.emb (ix2 p j))
  rw [hemb, Cert.Sage.layerRelu_ix2]
  refine (pay_apply (iblk1 V c 0 t) (iblk1 V c 1 t) (iblk1 V c 2 t) (iblk1 V c 3 t) (iblk1 V c 4 t) (iblk1 V c 5 t) p j).trans ?_
  refine congrArg (fun v => max v Cert.Sage.zeroW) ?_
  exact Cert.Sage.preact_congr (iblk1 V c 0 t) (iblk1 V c 1 t) (iblk1 V c 2 t) (iblk1 V c 3 t) (iblk1 V c 4 t) (iblk1 V c 5 t)
    (V c main_call0_v33) (V c main_call0_v12) (V c main_call0_v23) (V c main_arg5) (V c main_arg6) (V c main_arg7) p ⟨win1_6.index t (0 : Fin 2) * 2000 + p.val, hlt⟩ j
    (fun q => read_agg V c t p q _ rfl) (read_inv V c t p _ rfl) (fun q => read_x V c t p q _ rfl)
    (fun q => read_wl V c t q j) (fun q => read_wr V c t q j) (read_b V c t j)

/-- An index of the output array is in point `t`'s block iff each coordinate is in the block's range on its axis. -/
theorem mem_blk (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_call0_v34).slice (win1_6.rect t)).set ↔ _
  rw [View.set_slice_whole, Rect.mem_set_unit]
  exact Iff.rfl

/-- Row r of the output lies in the block of point number r / 2000. -/
theorem cover (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- The array the launch leaves: the layer of the arrays it found. -/
theorem arr (c : Dev nD) :
    (dat1 V c).arrAt 6 cfg1.N
      = Cert.Sage.layerRelu (V c main_call0_v33) (V c main_call0_v12) (V c main_call0_v23) (V c main_arg5) (V c main_arg6) (V c main_arg7) :=
  (dat1 V c).arrAt_eq_of_cover 6 _ (fun t _ => flushed_eq V c t) (fun i => cover i)

end Cert.KernelIdeal.KLayer1

end
-- ==== Proof.KFoldLayer2.lean ====
/-
  The fold through the second launch and the third host stretch: the second launch leaves the second layer; the
  stretch after it computes that layer's neighbour sum; the column and the last layer's weights are found as they were.
-/
import proofs.«147737_j30219389895226_2_alg».proof.Proof.KFoldLayer1
import proofs.«147737_j30219389895226_2_alg».proof.Proof.KLayer1

set_option maxRecDepth 16384

noncomputable section

namespace Cert.KernelIdeal.KFold

open Cert.KernelIdeal Cert.KernelIdeal.Gen Cert.KernelIdeal.GenP
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## After the second launch -/

theorem W4_h2 (c : Dev nD) : @Eq (FVec Ideal Cert.ReferenceIdeal.S50000x256 .f32) (W4 m ρ c (Proc.devRef .tc main_call0_v34)) (h2 m c) := by
  refine (W4_arr m ρ c 6).trans ((KLayer1.arr (V3 m ρ) c).trans ?_)
  show Cert.Sage.layerRelu (W3 m ρ c (Proc.devRef .tc main_call0_v33)) (W3 m ρ c (Proc.devRef .tc main_call0_v12)) (W3 m ρ c (Proc.devRef .tc main_call0_v23)) (W3 m ρ c (Proc.devRef .tc main_arg5)) (W3 m ρ c (Proc.devRef .tc main_arg6)) (W3 m ρ c (Proc.devRef .tc main_arg7)) = _
  rw [W3_agg, W3_inv, W3_h1, W3_arg5, W3_arg6, W3_arg7]
  rfl

theorem W4_src (c : Dev nD) : @Eq (IVec Cert.ReferenceIdeal.S800000 32) (W4 m ρ c (Proc.devRef .tc main_call0_v1)) (Cert.ReferenceIdeal.Read.val_main_v1 (F := Ideal) (m ((c : Thread nD τ).loc main_arg1))) :=
  (W4_of_ne m ρ c main_call0_v1 (by decide)).trans (W3_src m ρ c)

theorem W4_dst (c : Dev nD) : @Eq (IVec Cert.ReferenceIdeal.S800000 32) (W4 m ρ c (Proc.devRef .tc main_call0_v3)) (Cert.ReferenceIdeal.Read.val_main_v3 (F := Ideal) (m ((c : Thread nD τ).loc main_arg1))) :=
  (W4_of_ne m ρ c main_call0_v3 (by decide)).trans (W3_dst m ρ c)

theorem W4_inv (c : Dev nD) : @Eq (FVec Ideal Cert.ReferenceIdeal.S50000x1 .f32) (W4 m ρ c (Proc.devRef .tc main_call0_v12)) (Cert.ReferenceIdeal.Read.val_main_v12 (F := Ideal) (m ((c : Thread nD τ).loc main_arg1))) :=
  ((W4_arr m ρ c 1).trans (((dat1 (V3 m ρ) c).arrAt_in 1 rfl _).trans (A_eq1 (V3 m ρ) c 1))).trans (W3_inv m ρ c)

theorem W4_arg8 (c : Dev nD) : W4 m ρ c (Proc.devRef .tc main_arg8) = m ((c : Thread nD τ).loc main_arg8) :=
  (W4_of_ne m ρ c main_arg8 (by decide)).trans (W3_arg8 m ρ c)

theorem W4_arg9 (c : Dev nD) : W4 m ρ c (Proc.devRef .tc main_arg9) = m ((c : Thread nD τ).loc main_arg9) :=
  (W4_of_ne m ρ c main_arg9 (by decide)).trans (W3_arg9 m ρ c)

theorem W4_arg10 (c : Dev nD) : W4 m ρ c (Proc.devRef .tc main_arg10) = m ((c : Thread nD τ).loc main_arg10) :=
  (W4_of_ne m ρ c main_arg10 (by decide)).trans (W3_arg10 m ρ c)

/-! ## After the third host stretch -/

theorem W5_agg (c : Dev nD) : @Eq (FVec Ideal Cert.ReferenceIdeal.S50000x256 .f32) (W5 m ρ c (Proc.devRef .tc main_call0_v44)) (nbr256 (m ((c : Thread nD τ).loc main_arg1)) (h2 m c)) := by
  have e : @Eq (FVec Ideal Cert.ReferenceIdeal.S50000x256 .f32) (W5 m ρ c (Proc.devRef .tc main_call0_v44))
      (Host.scatterAdd (F := Ideal) Cert.ReferenceIdeal.scatter_S50000x256_S800000x1_S800000x256_1_0_0_1 (Cert.ReferenceIdeal.Read.val_main_v39 (F := Ideal))
        (broadcastInDim S800000x1 ![0] bcast_S800000_S800000x1_0 (W4 m ρ c (Proc.devRef .tc main_call0_v3) : IVec Cert.ReferenceIdeal.S800000 32))
        (Host.gather Cert.ReferenceIdeal.gather_S50000x256_S800000x1_S800000x256_1_0_n_n_0_1_1256
          (W4 m ρ c (Proc.devRef .tc main_call0_v34) : FVec Ideal Cert.ReferenceIdeal.S50000x256 .f32)
          (broadcastInDim S800000x1 ![0] bcast_S800000_S800000x1_0
            (select (cmpi .slt (W4 m ρ c (Proc.devRef .tc main_call0_v1) : IVec Cert.ReferenceIdeal.S800000 32) (Cert.ReferenceIdeal.Read.val_main_v32 (F := Ideal)))
              (addi (W4 m ρ c (Proc.devRef .tc main_call0_v1) : IVec Cert.ReferenceIdeal.S800000 32) (Cert.ReferenceIdeal.Read.val_main_v34 (F := Ideal)))
              (W4 m ρ c (Proc.devRef .tc main_call0_v1) : IVec Cert.ReferenceIdeal.S800000 32))))) := by
    show StableHlo.after hostOps2 (W4 m ρ c) (Proc.devRef .tc main_call0_v44) = _
    generalize W4 m ρ c = F
    after_results_simp
    rfl
  rw [e, W4_h2, W4_src, W4_dst]
  rfl

theorem W5_h2 (c : Dev nD) : @Eq (FVec Ideal Cert.ReferenceIdeal.S50000x256 .f32) (W5 m ρ c (Proc.devRef .tc main_call0_v34)) (h2 m c) :=
  (show StableHlo.after hostOps2 (W4 m ρ c) (Proc.devRef .tc main_call0_v34) = W4 m ρ c (Proc.devRef .tc main_call0_v34) by host_keeps hostOps2).trans (W4_h2 m ρ c)

theorem W5_inv (c : Dev nD) : @Eq (FVec Ideal Cert.ReferenceIdeal.S50000x1 .f32) (W5 m ρ c (Proc.devRef .tc main_call0_v12)) (Cert.ReferenceIdeal.Read.val_main_v12 (F := Ideal) (m ((c : Thread nD τ).loc main_arg1))) :=
  (show StableHlo.after hostOps2 (W4 m ρ c) (Proc.devRef .tc main_call0_v12) = W4 m ρ c (Proc.devRef .tc main_call0_v12) by host_keeps hostOps2).trans (W4_inv m ρ c)

theorem W5_arg8 (c : Dev nD) : W5 m ρ c (Proc.devRef .tc main_arg8) = m ((c : Thread nD τ).loc main_arg8) :=
  (show StableHlo.after hostOps2 (W4 m ρ c) (Proc.devRef .tc main_arg8) = W4 m ρ c (Proc.devRef .tc main_arg8) by host_keeps hostOps2).trans (W4_arg8 m ρ c)

theorem W5_arg9 (c : Dev nD) : W5 m ρ c (Proc.devRef .tc main_arg9) = m ((c : Thread nD τ).loc main_arg9) :=
  (show StableHlo.after hostOps2 (W4 m ρ c) (Proc.devRef .tc main_arg9) = W4 m ρ c (Proc.devRef .tc main_arg9) by host_keeps hostOps2).trans (W4_arg9 m ρ c)

theorem W5_arg10 (c : Dev nD) : W5 m ρ c (Proc.devRef .tc main_arg10) = m ((c : Thread nD τ).loc main_arg10) :=
  (show StableHlo.after hostOps2 (W4 m ρ c) (Proc.devRef .tc main_arg10) = W4 m ρ c (Proc.devRef .tc main_arg10) by host_keeps hostOps2).trans (W4_arg10 m ρ c)

end Cert.KernelIdeal.KFold

end
-- ==== Proof.KLayer2.lean ====
/-
  Kernel launch 2 of the encoder: the array it leaves is one layer of its input arrays.

  The launch walks 25 blocks of 2000 rows.  At each it reads rows [2000 t, 2000 t + 2000) of the neighbour sums, of
  the inverse-degree column and of the features, the whole of both weight matrices and of the bias, and writes
  rows [2000 t, 2000 t + 2000) of the output: the layer's value with no activation,
  computed on the block.  Since an entry of a layer depends on one row of its inputs only, what block t receives is
  block t of the layer computed on the whole arrays; the 25 blocks cover the 50000 rows, so the array the launch
  leaves IS that layer.  Everything is stated for any contents `V` of the buffers when the launch is entered.
-/
import proofs.«147737_j30219389895226_2_alg».proof.Proof.PatchedFrameKernelIdeal
import proofs.«147737_j30219389895226_2_alg».proof.Proof.SageSpec
import proofs.«147737_j30219389895226_2_alg».proof.Proof.SageRows

set_option maxRecDepth 16384

noncomputable section

namespace Cert.KernelIdeal.KLayer2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the body stores, at entry (p, j) of its block: the layer's value on the block's rows. -/
theorem pay_apply (v0 : Vec Ideal S2000x256 .f32) (v2 : Vec Ideal S2000x1 .f32) (v7 : Vec Ideal S2000x256 .f32)
    (vl vr : Vec Ideal S256x384 .f32) (vb : Vec Ideal S384 .f32) (p : Fin 2000) (j : Fin 384) :
    k2_pay1 (F := Ideal) v0 v2 v7 vl vr vb (ix2 p j) = Cert.Sage.preact v0 v2 v7 vl vr vb p j := by
  unfold k2_pay1
  refine (Cert.Sage.kernel_preact_apply dot_S2000x256_S256x384_S2000x384_1_0_0_1_n_n rfl broadcasts_S2000x1_S2000x256 shapeCasts_S384_S1x384 broadcasts_S1x384_S2000x384 bitsLt_bf16_f32
      (shapeCast S2000x256 v0 shapeCasts_S2000x256_S2000x256) (shapeCast S2000x1 v2 shapeCasts_S2000x1_S2000x1) (shapeCast S2000x256 v7 shapeCasts_S2000x256_S2000x256) vl vr vb p j).trans ?_
  rw [shapeCast_self, shapeCast_self, shapeCast_self]

/-- The printed index maps over the grid: the three row-blocked inputs move with the output's row block, the
    weights and the bias stay at block zero, and the output's row block is one of the 25. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (1 : Fin 2) = 0 ∧ win2_6.index t (0 : Fin 2) ≤ 24 :=
  (by decide +kernel : ∀ t : Fin grid2.N, _)

/-- Every one of the 25 row blocks is some point's. -/
theorem idx_onto : ∀ q : Fin 25, ∃ t : Fin cfg2.N, win2_6.index t = ![q.val, 0] :=
  (by decide +kernel : ∀ q : Fin 25, ∃ t : Fin grid2.N, win2_6.index t = ![q.val, 0])

/-! ## The input blocks, read by coordinates -/

theorem read_agg (c : Dev nD) (t : Fin cfg2.N) (p : Fin 2000) (q : Fin 256) (r : Fin 50000)
    (hr : r.val = win2_6.index t (0 : Fin 2) * 2000 + p.val) :
    iblk2 V c 0 t (ix2 p q) = V c main_call0_v44 (ix2 r q) := by
  obtain ⟨e0, e1, -⟩ := idx_facts t
  show V c main_call0_v44 (((cfg2.win 0).blk t).view.emb (ix2 p q)) = V c main_call0_v44 (ix2 r q)
  refine congrArg (V c main_call0_v44) (funext fun a => Fin.ext ?_)
  match a with
  | ⟨0, _⟩ => show win2_0.index t (0 : Fin 2) * 2000 + 1 * p.val = r.val; omega
  | ⟨1, _⟩ => show win2_0.index t (1 : Fin 2) * 256 + 1 * q.val = q.val; omega

theorem read_inv (c : Dev nD) (t : Fin cfg2.N) (p : Fin 2000) (r : Fin 50000)
    (hr : r.val = win2_6.index t (0 : Fin 2) * 2000 + p.val) :
    iblk2 V c 1 t (ix2 p (0 : Fin 1)) = V c main_call0_v12 (ix2 r (0 : Fin 1)) := by
  obtain ⟨-, -, e0, e1, -⟩ := idx_facts t
  show V c main_call0_v12 (((cfg2.win 1).blk t).view.emb (ix2 p (0 : Fin 1))) = V c main_call0_v12 (ix2 r (0 : Fin 1))
  refine congrArg (V c main_call0_v12) (funext fun a => Fin.ext ?_)
  match a with
  | ⟨0, _⟩ => show win2_1.index t (0 : Fin 2) * 2000 + 1 * p.val = r.val; omega
  | ⟨1, _⟩ => show win2_1.index t (1 : Fin 2) * 1 + 1 * 0 = 0; omega

theorem read_x (c : Dev nD) (t : Fin cfg2.N) (p : Fin 2000) (q : Fin 256) (r : Fin 50000)
    (hr : r.val = win2_6.index t (0 : Fin 2) * 2000 + p.val) :
    iblk2 V c 2 t (ix2 p q) = V c main_call0_v34 (ix2 r q) := by
  obtain ⟨-, -, -, -, e0, e1, -⟩ := idx_facts t
  show V c main_call0_v34 (((cfg2.win 2).blk t).view.emb (ix2 p q)) = V c main_call0_v34 (ix2 r q)
  refine congrArg (V c main_call0_v34) (funext fun a => Fin.ext ?_)
  match a with
  | ⟨0, _⟩ => show win2_2.index t (0 : Fin 2) * 2000 + 1 * p.val = r.val; omega
  | ⟨1, _⟩ => show win2_2.index t (1 : Fin 2) * 256 + 1 * q.val = q.val; omega

theorem read_wl (c : Dev nD) (t : Fin cfg2.N) (q : Fin 256) (j : Fin 384) :
    iblk2 V c 3 t (ix2 q j) = V c main_arg8 (ix2 q j) := by
  obtain ⟨-, -, -, -, -, -, e0, e1, -⟩ := idx_facts t
  show V c main_arg8 (((cfg2.win 3).blk t).view.emb (ix2 q j)) = V c main_arg8 (ix2 q j)
  refine congrArg (V c main_arg8) (funext fun a => Fin.ext ?_)
  match a with
  | ⟨0, _⟩ => show win2_3.index t (0 : Fin 2) * 256 + 1 * q.val = q.val; omega
  | ⟨1, _⟩ => show win2_3.index t (1 : Fin 2) * 384 + 1 * j.val = j.val; omega

theorem read_wr (c : Dev nD) (t : Fin cfg2.N) (q : Fin 256) (j : Fin 384) :
    iblk2 V c 4 t (ix2 q j) = V c main_arg9 (ix2 q j) := by
  obtain ⟨-, -, -, -, -, -, -, -, e0, e1, -⟩ := idx_facts t
  show V c main_arg9 (((cfg2.win 4).blk t).view.emb (ix2 q j)) = V c main_arg9 (ix2 q j)
  refine congrArg (V c main_arg9) (funext fun a => Fin.ext ?_)
  match a with
  | ⟨0, _⟩ => show win2_4.index t (0 : Fin 2) * 256 + 1 * q.val = q.val; omega
  | ⟨1, _⟩ => show win2_4.index t (1 : Fin 2) * 384 + 1 * j.val = j.val; omega

theorem read_b (c : Dev nD) (t : Fin cfg2.N) (j : Fin 384) :
    iblk2 V c 5 t (ix1 j) = V c main_arg10 (ix1 j) := by
  obtain ⟨-, -, -, -, -, -, -, -, -, -, e0, -⟩ := idx_facts t
  show V c main_arg10 (((cfg2.win 5).blk t).view.emb (ix1 j)) = V c main_arg10 (ix1 j)
  refine congrArg (V c main_arg10) (funext fun a => Fin.ext ?_)
  match a with
  | ⟨0, _⟩ => show win2_5.index t (0 : Fin 1) * 384 + 1 * j.val = j.val; omega

/-! ## From the blocks to the array -/

/-- What point `t` writes back is block `t` of the layer computed on the whole arrays. -/
theorem flushed_eq (c : Dev nD) (t : Fin cfg2.N) :
    (dat2 V c).flushed 6 t = ((cfg2.win 6).blk t).view.read (Elt Ideal)
      (Cert.Sage.layerLin (V c main_call0_v44) (V c main_call0_v12) (V c main_call0_v34) (V c main_arg8) (V c main_arg9) (V c main_arg10)) := by
  show (cfg2.win 6).cut (grid2.coords t) ((dat2 V c).after 6 t) = _
  rw [after2_6]
  unfold out2_6
  rw [View.canon_unit_zero hz2]
  simp only [View.ld_unit_zero (S := S2000x256) hz2, View.ld_unit_zero (S := S2000x1) hz2, View.ld_unit_zero (S := S256x384) hz2,
    View.ld_unit_zero (S := S384) hz1]
  funext y
  obtain ⟨p, j, rfl⟩ : ∃ (p : Fin 2000) (j : Fin 384), y = ix2 p j := ⟨y 0, y 1, eq_ix2 y⟩
  obtain ⟨-, -, -, -, -, -, -, -, -, -, -, e61, e6le⟩ := idx_facts t
  have hlt : win2_6.index t (0 : Fin 2) * 2000 + p.val < 50000 := by have := p.isLt; omega
  have hemb : ((cfg2.win 6).blk t).view.emb (ix2 p j)
      = ix2 (⟨win2_6.index t (0 : Fin 2) * 2000 + p.val, hlt⟩ : Fin 50000) j := funext fun a => Fin.ext (by
    match a with
    | ⟨0, _⟩ => show win2_6.index t (0 : Fin 2) * 2000 + 1 * p.val = win2_6.index t (0 : Fin 2) * 2000 + p.val; omega
    | ⟨1, _⟩ => show win2_6.index t (1 : Fin 2) * 384 + 1 * j.val = j.val; omega)
  show k2_pay1 (iblk2 V c 0 t) (iblk2 V c 1 t) (iblk2 V c 2 t) (iblk2 V c 3 t) (iblk2 V c 4 t) (iblk2 V c 5 t) (ix2 p j)
    = Cert.Sage.layerLin (V c main_call0_v44) (V c main_call0_v12) (V c main_call0_v34) (V c main_arg8) (V c main_arg9) (V c main_arg10) (((cfg2.win 6).blk t).view.emb (ix2 p j))
  rw [hemb, Cert.Sage.layerLin_ix2]
  refine (pay_apply (iblk2 V c 0 t) (iblk2 V c 1 t) (iblk2 V c 2 t) (iblk2 V c 3 t) (iblk2 V c 4 t) (iblk2 V c 5 t) p j).trans ?_
  exact Cert.Sage.preact_congr (iblk2 V c 0 t) (iblk2 V c 1 t) (iblk2 V c 2 t) (iblk2 V c 3 t) (iblk2 V c 4 t) (iblk2 V c 5 t)
    (V c main_call0_v44) (V c main_call0_v12) (V c main_call0_v34) (V c main_arg8) (V c main_arg9) (V c main_arg10) p ⟨win2_6.index t (0 : Fin 2) * 2000 + p.val, hlt⟩ j
    (fun q => read_agg V c t p q _ rfl) (read_inv V c t p _ rfl) (fun q => read_x V c t p q _ rfl)
    (fun q => read_wl V c t q j) (fun q => read_wr V c t q j) (read_b V c t j)

/-- An index of the output array is in point `t`'s block iff each coordinate is in the block's range on its axis. -/
theorem mem_blk (t : Fin cfg2.N) (i : S50000x384.Idx) :
    i ∈ ((cfg2.win 6).blk t).view.set ↔ ∀ a : Fin 2, win2_6.index t a * S2000x384.size a ≤ (i a).val
      ∧ (i a).val < win2_6.index t a * S2000x384.size a + S2000x384.size a := by
  show i ∈ ((View.whole main_v0).slice (win2_6.rect t)).set ↔ _
  rw [View.set_slice_whole, Rect.mem_set_unit]
  exact Iff.rfl

/-- Row r of the output lies in the block of point number r / 2000. -/
theorem cover (i : S50000x384.Idx) :
    ∃ t : Fin cfg2.N, (cfg2.win 6).flush t = true ∧ i ∈ ((cfg2.win 6).blk t).view.set := by
  have hi0 : (i 0).val < 50000 := (i 0).isLt
  have hi1 : (i 1).val < 384 := (i 1).isLt
  obtain ⟨t, ht⟩ := idx_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 384 ≤ (i 1).val ∧ (i 1).val < win2_6.index t (1 : Fin 2) * 384 + 384; omega

/-- The array the launch leaves: the layer of the arrays it found. -/
theorem arr (c : Dev nD) :
    (dat2 V c).arrAt 6 cfg2.N
      = Cert.Sage.layerLin (V c main_call0_v44) (V c main_call0_v12) (V c main_call0_v34) (V c main_arg8) (V c main_arg9) (V c main_arg10) :=
  (dat2 V c).arrAt_eq_of_cover 6 _ (fun t _ => flushed_eq V c t) (fun i => cover i)

end Cert.KernelIdeal.KLayer2

end
-- ==== Proof.KFold.lean ====
/-
  The segments' fold of the idealized kernel program, read at the result.

  The program alternates stretches of host operations with three kernel launches.  The fold `W0 … W6` gives the
  buffers' contents at each boundary: `W1`, `W3`, `W5` after a host stretch, `W2`, `W4`, `W6` after a launch.  Walking
  it forward from the launch memory `m`:
    · the first stretch computes the edge sources and targets, the inverse-degree column and the neighbour sum of the
      input features;
    · each launch leaves one layer of the arrays it finds (the three launch modules);
    · the second and third stretches compute the neighbour sum of the previous layer's output;
    · everything else a launch reads (the column, the previous layer, the weights and biases) no operation writes, so
      it is found as it was left.
  The host terms are stated as the reference program's stage functions of the edge list: the two programs apply the
  same operations, so the kernel program's composed term IS that function, and at the result the fold is the
  three-layer encoder of the launch memory.
-/
import proofs.«147737_j30219389895226_2_alg».proof.Proof.KFoldLayer2
import proofs.«147737_j30219389895226_2_alg».proof.Proof.KLayer2

set_option maxRecDepth 16384

noncomputable section

namespace Cert.KernelIdeal.KFold

open Cert.KernelIdeal Cert.KernelIdeal.Gen Cert.KernelIdeal.GenP
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## After the third launch: the result -/

/-- The result buffer ends at the three-layer encoder of the launch memory. -/
theorem W6_result (c : Dev nD) : @Eq (FVec Ideal Cert.ReferenceIdeal.S50000x384 .f32) (W6 m ρ c (Proc.devRef .tc main_v0))
    (Cert.Sage.encoder (nbr128 (m ((c : Thread nD τ).loc main_arg1))) (nbr256 (m ((c : Thread nD τ).loc main_arg1))) (nbr256 (m ((c : Thread nD τ).loc main_arg1))) (Cert.ReferenceIdeal.Read.val_main_v12 (F := Ideal) (m ((c : Thread nD τ).loc main_arg1))) (m ((c : Thread nD τ).loc main_arg0))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))) := by
  refine (W6_arr m ρ c 6).trans ((KLayer2.arr (V5 m ρ) c).trans ?_)
  show Cert.Sage.layerLin (W5 m ρ c (Proc.devRef .tc main_call0_v44)) (W5 m ρ c (Proc.devRef .tc main_call0_v12)) (W5 m ρ c (Proc.devRef .tc main_call0_v34)) (W5 m ρ c (Proc.devRef .tc main_arg8)) (W5 m ρ c (Proc.devRef .tc main_arg9)) (W5 m ρ c (Proc.devRef .tc main_arg10)) = _
  rw [W5_agg, W5_inv, W5_h2, W5_arg8, W5_arg9, W5_arg10]
  rfl

end Cert.KernelIdeal.KFold

end
-- ==== Proof.RefEncoder.lean ====
/-
  The reference program's result is the three-layer encoder of the specification.

  The host program computes, layer by layer, the neighbour sum of the current features (a gather of the rows at
  the edges' sources, then a scatter-add at the edges' targets), scales it by the column of inverse degrees,
  multiplies by the left weights, adds the features times the right weights and the bias, and on the two inner
  layers takes the maximum with zero.  Read entry by entry, each layer is the specification's layer applied to
  the neighbour sum as the host computes it, so the whole program is the specification's encoder with the host's
  neighbour sums (one per width) and the host's inverse degrees as parameters.
-/
import proofs.«147737_j30219389895226_2_alg».proof.Proof.SageSpec
import proofs.«147737_j30219389895226_2_alg».proof.Proof.Gen.ReferenceIdeal.Read

noncomputable section

namespace Cert.RefEncoder

open Cert.ReferenceIdeal Cert.ReferenceIdeal.Read Idealize.ShloMosaic Idealize.ShloMosaic.ValueIdx Cert.Sage

/-- the neighbour sum of rows of width 128, as the host computes it from the edge list -/
def agg128 (ei : (⟨S2x800000, .i32⟩ : BufTy).Contents (Elt Ideal)) (h : FVec Ideal S50000x128 .f32) : FVec Ideal S50000x128 .f32 :=
  Host.scatterAdd scatter_S50000x128_S800000x1_S800000x128_1_0_0_1 (val_main_v20 (F := Ideal)) (val_main_v21 (F := Ideal) ei)
    (Host.gather gather_S50000x128_S800000x1_S800000x128_1_0_n_n_0_1_1128 h (val_main_v18 (F := Ideal) ei))

/-- the same at width 256 -/
def agg256 (ei : (⟨S2x800000, .i32⟩ : BufTy).Contents (Elt Ideal)) (h : FVec Ideal S50000x256 .f32) : FVec Ideal S50000x256 .f32 :=
  Host.scatterAdd scatter_S50000x256_S800000x1_S800000x256_1_0_0_1 (val_main_v39 (F := Ideal)) (val_main_v40 (F := Ideal) ei)
    (Host.gather gather_S50000x256_S800000x1_S800000x256_1_0_n_n_0_1_1256 h (val_main_v37 (F := Ideal) ei))

/-! ## A layer as the host spells it, over any extents -/

section Layer
variable {m k n : ℕ}

/-- An inner layer in the host's spelling — two products, the column of inverse degrees and the bias broadcast in
    dimensions, then the maximum with the splat of the zero word — is the specification's inner layer. -/
theorem host_layerRelu (D : DotDims ⟨2, ![m, k]⟩ ⟨2, ![k, n]⟩ ⟨2, ![m, n]⟩) (hD : D = DotDims.plain m k n)
    (hcol : (⟨2, ![m, 1]⟩ : Shape).BroadcastsInDim ⟨2, ![m, k]⟩ (![0, 1] : Fin 2 → Fin 2))
    (hrow : (⟨1, ![n]⟩ : Shape).BroadcastsInDim ⟨2, ![1, n]⟩ (![1] : Fin 1 → Fin 2))
    (hdown : (⟨2, ![1, n]⟩ : Shape).BroadcastsInDim ⟨2, ![m, n]⟩ (![0, 1] : Fin 2 → Fin 2))
    (hz : (⟨0, ![]⟩ : Shape).BroadcastsInDim ⟨2, ![m, n]⟩ (![] : Fin 0 → Fin 2))
    (agg : FVec Ideal ⟨2, ![m, k]⟩ .f32) (inv : FVec Ideal ⟨2, ![m, 1]⟩ .f32) (x : FVec Ideal ⟨2, ![m, k]⟩ .f32)
    (wl wr : FVec Ideal ⟨2, ![k, n]⟩ .f32) (b : FVec Ideal ⟨1, ![n]⟩ .f32) :
    maximumf
        (addf (addf
            (Host.dotGeneral D none (mulf agg (broadcastInDim ⟨2, ![m, k]⟩ (![0, 1] : Fin 2 → Fin 2) hcol inv)) wl)
            (Host.dotGeneral D none x wr))
          (broadcastInDim ⟨2, ![m, n]⟩ (![0, 1] : Fin 2 → Fin 2) hdown (broadcastInDim ⟨2, ![1, n]⟩ (![1] : Fin 1 → Fin 2) hrow b)))
        (broadcastInDim ⟨2, ![m, n]⟩ (![] : Fin 0 → Fin 2) hz (constant (F := Ideal) ⟨0, ![]⟩ .f32 0x00000000#32))
      = layerRelu agg inv x wl wr b := by
  funext i
  obtain ⟨p, j, rfl⟩ : ∃ (p : Fin m) (j : Fin n), i = ix2 p j := ⟨i 0, i 1, eq_ix2 i⟩
  rw [layerRelu_ix2]
  exact congrArg₂ max (host_preact_apply D hD hcol hrow hdown agg inv x wl wr b p j) rfl

/-- The last layer in the host's spelling is the specification's last layer. -/
theorem host_layerLin (D : DotDims ⟨2, ![m, k]⟩ ⟨2, ![k, n]⟩ ⟨2, ![m, n]⟩) (hD : D = DotDims.plain m k n)
    (hcol : (⟨2, ![m, 1]⟩ : Shape).BroadcastsInDim ⟨2, ![m, k]⟩ (![0, 1] : Fin 2 → Fin 2))
    (hrow : (⟨1, ![n]⟩ : Shape).BroadcastsInDim ⟨2, ![1, n]⟩ (![1] : Fin 1 → Fin 2))
    (hdown : (⟨2, ![1, n]⟩ : Shape).BroadcastsInDim ⟨2, ![m, n]⟩ (![0, 1] : Fin 2 → Fin 2))
    (agg : FVec Ideal ⟨2, ![m, k]⟩ .f32) (inv : FVec Ideal ⟨2, ![m, 1]⟩ .f32) (x : FVec Ideal ⟨2, ![m, k]⟩ .f32)
    (wl wr : FVec Ideal ⟨2, ![k, n]⟩ .f32) (b : FVec Ideal ⟨1, ![n]⟩ .f32) :
    addf (addf
          (Host.dotGeneral D none (mulf agg (broadcastInDim ⟨2, ![m, k]⟩ (![0, 1] : Fin 2 → Fin 2) hcol inv)) wl)
          (Host.dotGeneral D none x wr))
        (broadcastInDim ⟨2, ![m, n]⟩ (![0, 1] : Fin 2 → Fin 2) hdown (broadcastInDim ⟨2, ![1, n]⟩ (![1] : Fin 1 → Fin 2) hrow b))
      = layerLin agg inv x wl wr b := by
  funext i
  obtain ⟨p, j, rfl⟩ : ∃ (p : Fin m) (j : Fin n), i = ix2 p j := ⟨i 0, i 1, eq_ix2 i⟩
  rw [layerLin_ix2]
  exact host_preact_apply D hD hcol hrow hdown agg inv x wl wr b p j

end Layer

/-! ## The program's three layers -/

/-- The first layer's neighbour sum in the program is the host's neighbour sum of the input features. -/
theorem agg_layer1 (x0 : (⟨S50000x128, .f32⟩ : BufTy).Contents (Elt Ideal)) (x1 : (⟨S2x800000, .i32⟩ : BufTy).Contents (Elt Ideal)) :
    val_main_v22 (F := Ideal) x0 x1 = agg128 x1 x0 := by
  unfold val_main_v22 val_main_v19 agg128
  rfl

/-- The first layer of the program, after its maximum with zero, is the specification's inner layer on the input
    features and their neighbour sum. -/
theorem layer1 (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal)) :
    val_main_v31 (F := Ideal) x0 x1 x2 x3 x4 = layerRelu (agg128 x1 x0) (val_main_v12 (F := Ideal) x1) x0 x2 x3 x4 := by
  rw [← agg_layer1]
  unfold val_main_v31 val_main_v30 val_main_v27 val_main_v25 val_main_v26 val_main_v24 val_main_v23 val_main_v29 val_main_v28
    val_main_call0_v0 val_main_call0_cst
  generalize val_main_v22 (F := Ideal) x0 x1 = agg
  generalize val_main_v12 (F := Ideal) x1 = inv
  exact host_layerRelu _ rfl _ _ _ _ agg inv x0 x2 x3 x4

/-- The second layer's neighbour sum in the program is the host's neighbour sum of the first layer's features. -/
theorem agg_layer2 (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal)) :
    val_main_v41 (F := Ideal) x0 x1 x2 x3 x4 = agg256 x1 (val_main_v31 (F := Ideal) x0 x1 x2 x3 x4) := by
  unfold val_main_v41 val_main_v38 agg256
  rfl

/-- The second layer of the program, after its maximum with zero, is the specification's inner layer on the first
    layer's features and their neighbour sum. -/
theorem layer2 (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x256, .f32⟩ : BufTy).Contents (Elt Ideal)) (x7 : (⟨S256, .f32⟩ : BufTy).Contents (Elt Ideal)) :
    val_main_v50 (F := Ideal) x0 x1 x2 x3 x4 x5 x6 x7
      = layerRelu (agg256 x1 (val_main_v31 (F := Ideal) x0 x1 x2 x3 x4)) (val_main_v12 (F := Ideal) x1)
          (val_main_v31 (F := Ideal) x0 x1 x2 x3 x4) x5 x6 x7 := by
  rw [← agg_layer2]
  unfold val_main_v50 val_main_v49 val_main_v46 val_main_v44 val_main_v45 val_main_v43 val_main_v42 val_main_v48 val_main_v47
    val_main_call1_v0 val_main_call1_cst
  generalize val_main_v41 (F := Ideal) x0 x1 x2 x3 x4 = agg
  generalize val_main_v31 (F := Ideal) x0 x1 x2 x3 x4 = h
  generalize val_main_v12 (F := Ideal) x1 = inv
  exact host_layerRelu _ rfl _ _ _ _ agg inv h x5 x6 x7

/-- The zero array the third neighbour sum starts from is the one the second starts from. -/
theorem zeros_layer3 : val_main_v58 (F := Ideal) = val_main_v39 (F := Ideal) := by
  unfold val_main_v58 val_main_v39 val_main_cst_10 val_main_cst_7
  rfl

/-- The edge targets the third neighbour sum adds at are the ones the second adds at. -/
theorem targets_layer3 (x1 : (⟨S2x800000, .i32⟩ : BufTy).Contents (Elt Ideal)) :
    val_main_v59 (F := Ideal) x1 = val_main_v40 (F := Ideal) x1 := by
  unfold val_main_v59 val_main_v40
  rfl

/-- The edge sources the third neighbour sum reads are the ones the second reads: the same wrap of a negative
    index by the number of nodes. -/
theorem sources_layer3 (x1 : (⟨S2x800000, .i32⟩ : BufTy).Contents (Elt Ideal)) :
    val_main_v56 (F := Ideal) x1 = val_main_v37 (F := Ideal) x1 := by
  unfold val_main_v56 val_main_v37 val_main_v55 val_main_v36 val_main_v52 val_main_v33 val_main_v54 val_main_v35
    val_main_v51 val_main_v32 val_main_v53 val_main_v34 val_main_c_8 val_main_c_5 val_main_c_9 val_main_c_6
  rfl

/-- The third layer's neighbour sum in the program is the host's neighbour sum of the second layer's features. -/
theorem agg_layer3 (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x256, .f32⟩ : BufTy).Contents (Elt Ideal)) (x7 : (⟨S256, .f32⟩ : BufTy).Contents (Elt Ideal)) :
    val_main_v60 (F := Ideal) x0 x1 x2 x3 x4 x5 x6 x7 = agg256 x1 (val_main_v50 (F := Ideal) x0 x1 x2 x3 x4 x5 x6 x7) := by
  unfold val_main_v60 val_main_v57 agg256
  rw [zeros_layer3, targets_layer3, sources_layer3]

/-- The third layer of the program is the specification's last layer on the second layer's features and their
    neighbour sum. -/
theorem layer3 (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x256, .f32⟩ : BufTy).Contents (Elt Ideal)) (x7 : (⟨S256, .f32⟩ : BufTy).Contents (Elt Ideal))
    (x8 x9 : (⟨S256x384, .f32⟩ : BufTy).Contents (Elt Ideal)) (x10 : (⟨S384, .f32⟩ : BufTy).Contents (Elt Ideal)) :
    val_main_v68 (F := Ideal) x0 x1 x2 x3 x4 x5 x6 x7 x8 x9 x10
      = layerLin (agg256 x1 (val_main_v50 (F := Ideal) x0 x1 x2 x3 x4 x5 x6 x7)) (val_main_v12 (F := Ideal) x1)
          (val_main_v50 (F := Ideal) x0 x1 x2 x3 x4 x5 x6 x7) x8 x9 x10 := by
  rw [← agg_layer3]
  unfold val_main_v68 val_main_v65 val_main_v63 val_main_v64 val_main_v62 val_main_v61 val_main_v67 val_main_v66
  generalize val_main_v60 (F := Ideal) x0 x1 x2 x3 x4 x5 x6 x7 = agg
  generalize val_main_v50 (F := Ideal) x0 x1 x2 x3 x4 x5 x6 x7 = h
  generalize val_main_v12 (F := Ideal) x1 = inv
  exact host_layerLin _ rfl _ _ _ agg inv h x8 x9 x10

/-! ## The whole program -/

/-- The reference program's result is the specification's encoder, with the host's neighbour sums and the host's
    column of inverse degrees. -/
theorem ref_encoder (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x256, .f32⟩ : BufTy).Contents (Elt Ideal)) (x7 : (⟨S256, .f32⟩ : BufTy).Contents (Elt Ideal))
    (x8 x9 : (⟨S256x384, .f32⟩ : BufTy).Contents (Elt Ideal)) (x10 : (⟨S384, .f32⟩ : BufTy).Contents (Elt Ideal)) :
    val_main_v68 (F := Ideal) x0 x1 x2 x3 x4 x5 x6 x7 x8 x9 x10
      = Cert.Sage.encoder (agg128 x1) (agg256 x1) (agg256 x1) (val_main_v12 (F := Ideal) x1) x0 x2 x3 x4 x5 x6 x7 x8 x9 x10 := by
  unfold Cert.Sage.encoder
  rw [layer3, layer2, layer1]

end Cert.RefEncoder

end
-- ==== Proof.lean ====
/-
  A three-layer GraphSAGE encoder: the kernel program against its reference, over the extended reals.

  Both programs compute, for node features x ([50000, 128]) and an edge list, three layers

      h ↦ act ( (A h · inv) W_l  +  h W_r  +  b ),

  where A h sums the rows of h over each node's incoming edges, inv is the column 1 / max(deg, 1) of inverse
  degrees, and act is the maximum with zero on the first two layers and nothing on the third.  Both compute A h and
  inv on the host by the same operations.  They differ only in how a layer is evaluated: the reference multiplies
  whole arrays on the host; the kernel program launches, per layer, a kernel that walks 25 blocks of 2000 rows
  and on each narrows its operands to bf16, multiplies into a zero accumulator, and adds the bias as a broadcast
  row.  On the extended reals the narrowing is the identity and a product into zero is the plain sum, and an entry
  of a layer depends on one row of its inputs only, so each launch leaves exactly the layer of the arrays it was
  given; the three launches and the host stretches between them compose to the same function of the inputs as
  the reference's straight line.  No law of arithmetic beyond reading the two spellings at an entry is used, so
  the precondition is never opened.

  The pieces: one layer at an entry in both spellings (SageEntry), its dependence on one row (SageRows), the encoder
  as a function (SageSpec), each launch's array (KLayer0, KLayer1, KLayer2), the kernel program's run with the
  result named (KRun) and its fold read at the result (KFold), the reference's last stage as the encoder
  (RefEncoder).
-/
import proofs.«147737_j30219389895226_2_alg».proof.Defs
import proofs.«147737_j30219389895226_2_alg».proof.Proof.Gen.Kernel
import proofs.«147737_j30219389895226_2_alg».proof.Proof.Gen.KernelIdeal
import proofs.«147737_j30219389895226_2_alg».proof.Proof.Gen.ReferenceIdeal
import proofs.«147737_j30219389895226_2_alg».proof.Proof.Gen.Pre_finite_inputs
import proofs.«147737_j30219389895226_2_alg».proof.Proof.PatchedFrameKernel
import proofs.«147737_j30219389895226_2_alg».proof.Proof.PatchedFrameKernelIdeal
import proofs.«147737_j30219389895226_2_alg».proof.Proof.Gen.ReferenceIdeal.Run
import proofs.«147737_j30219389895226_2_alg».proof.Proof.Gen.ReferenceIdeal.Read
import proofs.«147737_j30219389895226_2_alg».proof.Proof.KRun
import proofs.«147737_j30219389895226_2_alg».proof.Proof.KFold
import proofs.«147737_j30219389895226_2_alg».proof.Proof.RefEncoder
import Idealize.ShloMosaic.Adequacy
import Idealize.ShloMosaic.Init

noncomputable section

namespace Cert.Proof

open Idealize.ShloMosaic Idealize.ShloMosaic.TcCoe Idealize.SL.Sem

/-- The two names of the neighbour sum are one function: the same host operations of the edge list. -/
theorem nbr128_eq : Cert.KernelIdeal.KFold.nbr128 = Cert.RefEncoder.agg128 := rfl
theorem nbr256_eq : Cert.KernelIdeal.KFold.nbr256 = Cert.RefEncoder.agg256 := rfl

theorem frame_kernel : Cert.frame_Kernel := fun m ρ _ => Cert.Kernel.GenP.frame m ρ

theorem frame_kernelIdeal : Cert.frame_KernelIdeal := fun m ρ _ => Cert.KernelIdeal.GenP.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: the claim is `True`. -/
theorem preserves : Cert.preserves_Kernel_KernelIdeal := trivial

/-- Run from memories that agree on the arguments, the kernel program ends with its result buffer at the encoder of
    its launch memory (the fold read at the result), and the reference with its result at the encoder of its own
    arguments (its last stage): the same array. -/
theorem algebraic : Cert.algebraic_KernelIdeal_ReferenceIdeal := by
  intro m ρ m' ρ' _ hagree
  refine ⟨fun c => Cert.KernelIdeal.GenP.W6 m ρ c (Proc.devRef .tc Cert.KernelIdeal.main_v0), Cert.KernelIdeal.KRun.run_result m ρ, ?_⟩
  refine (θ_run Cert.ReferenceIdeal.defs _ _).mono (fun r h c => ⟨(h c).1.trans ?_, (h c).2⟩) (Cert.ReferenceIdeal.Value.run (F := Ideal) m' ρ')
  obtain ⟨a0, a1, a2, a3, a4, a5, a6, a7, a8, a9, a10⟩ := hagree c
  rw [Cert.ReferenceIdeal.Read.val_main_v68_eq, Cert.RefEncoder.ref_encoder, a0, a1, a2, a3, a4, a5, a6, a7, a8, a9, a10,
    ← nbr128_eq, ← nbr256_eq]
  exact (Cert.KernelIdeal.KFold.W6_result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
